-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S64x32 .f32) (main_arg6 : FVec F S64x32 .f32) (main_arg7 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S100000x64 .f32) (main_arg1 : IVec S2x1200000 32) (main_arg2 : FVec F S64x64 .f32) (main_arg3 : FVec F S64x64 .f32) (main_arg4 : FVec F S64 .f32) (main_arg5 : FVec F S64x32 .f32) (main_arg6 : FVec F S64x32 .f32) (main_arg7 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1200000 : Shape := ⟨2, ![1, 1200000]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S100000x1 : Shape := ⟨2, ![100000, 1]⟩
abbrev S1200000x64 : Shape := ⟨2, ![1200000, 64]⟩
abbrev S100000x32 : Shape := ⟨2, ![100000, 32]⟩
abbrev S4000x64 : Shape := ⟨2, ![4000, 64]⟩
abbrev S4000x1 : Shape := ⟨2, ![4000, 1]⟩
abbrev S4000x32 : Shape := ⟨2, ![4000, 32]⟩
abbrev S1x64 : Shape := ⟨2, ![1, 64]⟩
abbrev S1200000x32 : Shape := ⟨2, ![1200000, 32]⟩
abbrev S1x32 : Shape := ⟨2, ![1, 32]⟩

abbrev nBuf : Space → Nat
  | .hbm => 54
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S64x32, .f32⟩
  | .hbm, ⟨7, _⟩ => ⟨S32, .f32⟩
  | .hbm, ⟨8, _⟩ => ⟨S1x1200000, .i32⟩
  | .hbm, ⟨9, _⟩ => ⟨S1200000, .i32⟩
  | .hbm, ⟨10, _⟩ => ⟨S1x1200000, .i32⟩
  | .hbm, ⟨11, _⟩ => ⟨S1200000, .i32⟩
  | .hbm, ⟨12, _⟩ => ⟨S_, .f32⟩
  | .hbm, ⟨13, _⟩ => ⟨S1200000, .f32⟩
  | .hbm, ⟨14, _⟩ => ⟨S_, .f32⟩
  | .hbm, ⟨15, _⟩ => ⟨S100000, .f32⟩
  | .hbm, ⟨16, _⟩ => ⟨S1200000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1200000, .i32⟩
  | .hbm, ⟨27, _⟩ => ⟨S1200000, .i1⟩
  | .hbm, ⟨28, _⟩ => ⟨S_, .i32⟩
  | .hbm, ⟨29, _⟩ => ⟨S1200000, .i32⟩
  | .hbm, ⟨30, _⟩ => ⟨S1200000, .i32⟩
  | .hbm, ⟨31, _⟩ => ⟨S1200000, .i32⟩
  | .hbm, ⟨32, _⟩ => ⟨S1200000x1, .i32⟩
  | .hbm, ⟨33, _⟩ => ⟨S1200000x64, .f32⟩
  | .hbm, ⟨34, _⟩ => ⟨S_, .f32⟩
  | .hbm, ⟨35, _⟩ => ⟨S100000x64, .f32⟩
  | .hbm, ⟨36, _⟩ => ⟨S1200000x1, .i32⟩
  | .hbm, ⟨37, _⟩ => ⟨S100000x64, .f32⟩
  | .hbm, ⟨38, _⟩ => ⟨S100000x64, .f32⟩
  | .hbm, ⟨39, _⟩ => ⟨S100000x32, .f32⟩
  | .hbm, ⟨40, _⟩ => ⟨S_, .i32⟩
  | .hbm, ⟨41, _⟩ => ⟨S1200000, .i32⟩
  | .hbm, ⟨42, _⟩ => ⟨S1200000, .i1⟩
  | .hbm, ⟨43, _⟩ => ⟨S_, .i32⟩
  | .hbm, ⟨44, _⟩ => ⟨S1200000, .i32⟩
  | .hbm, ⟨45, _⟩ => ⟨S1200000, .i32⟩
  | .hbm, ⟨46, _⟩ => ⟨S1200000, .i32⟩
  | .hbm, ⟨47, _⟩ => ⟨S1200000x1, .i32⟩
  | .hbm, ⟨48, _⟩ => ⟨S1200000x32, .f32⟩
  | .hbm, ⟨49, _⟩ => ⟨S_, .f32⟩
  | .hbm, ⟨50, _⟩ => ⟨S100000x32, .f32⟩
  | .hbm, ⟨51, _⟩ => ⟨S1200000x1, .i32⟩
  | .hbm, ⟨52, _⟩ => ⟨S100000x32, .f32⟩
  | .hbm, ⟨53, _⟩ => ⟨S100000x32, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x1, .f32⟩
  | .local _ .vmem, ⟨5, _⟩ => ⟨S4000x1, .f32⟩
  | .local _ .vmem, ⟨6, _⟩ => ⟨S64x64, .f32⟩
  | .local _ .vmem, ⟨7, _⟩ => ⟨S64x64, .f32⟩
  | .local _ .vmem, ⟨8, _⟩ => ⟨S64, .f32⟩
  | .local _ .vmem, ⟨9, _⟩ => ⟨S64x32, .f32⟩
  | .local _ .vmem, ⟨10, _⟩ => ⟨S4000x64, .f32⟩
  | .local _ .vmem, ⟨11, _⟩ => ⟨S4000x64, .f32⟩
  | .local _ .vmem, ⟨12, _⟩ => ⟨S4000x32, .f32⟩
  | .local _ .vmem, ⟨13, _⟩ => ⟨S4000x32, .f32⟩
  | .local _ .vmem, ⟨14, _⟩ => ⟨S4000x32, .f32⟩
  | .local _ .vmem, ⟨15, _⟩ => ⟨S4000x32, .f32⟩
  | .local _ .vmem, ⟨16, _⟩ => ⟨S4000x64, .f32⟩
  | .local _ .vmem, ⟨17, _⟩ => ⟨S4000x64, .f32⟩
  | .local _ .vmem, ⟨18, _⟩ => ⟨S4000x1, .f32⟩
  | .local _ .vmem, ⟨19, _⟩ => ⟨S4000x1, .f32⟩
  | .local _ .vmem, ⟨20, _⟩ => ⟨S64x32, .f32⟩
  | .local _ .vmem, ⟨21, _⟩ => ⟨S32, .f32⟩
  | .local _ .vmem, ⟨22, _⟩ => ⟨S4000x32, .f32⟩
  | .local _ .vmem, ⟨23, _⟩ => ⟨S4000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23_0 : Ref sig .tc := ⟨.hbm, 38, rfl⟩
abbrev main_v23_1 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4000x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  broadcasts_S4000x1_S4000x64 : S4000x1.Broadcasts S4000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S64x32_S64x32_0_0 : ∀ a, (![0, 0] : Fin 2 → Nat) a + S64x32.size a ≤ S64x32.size a
  h_S64x32 : 0 < S64x32.numel
  inb_S4000x32_S4000x32_0_0 : ∀ a, (![0, 0] : Fin 2 → Nat) a + S4000x32.size a ≤ S4000x32.size a
  h_S4000x32 : 0 < S4000x32.numel
  bcast_S_S100000x32 : S_.BroadcastsInDim S100000x32 (![] : Fin 0 → Fin S100000x32.rank)
  shapeCasts_S4000x32_S4000x32 : S4000x32.ShapeCasts S4000x32
  broadcasts_S4000x1_S4000x32 : S4000x1.Broadcasts S4000x32
  inb_S32_S32_0 : ∀ a, (![0] : Fin 1 → Nat) a + S32.size a ≤ S32.size a
  h_S32 : 0 < S32.numel
  shapeCasts_S32_S1x32 : S32.ShapeCasts S1x32
  broadcasts_S1x32_S4000x32 : S1x32.Broadcasts S4000x32
  scatter_S100000_S1200000x1_S1200000_n_0_0_1_wf : ScatterDims.WF S100000 S1200000x1 S1200000 [] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S4000x64_S64x64_S4000x64_1_0_0_1_n_n_wf : DotDims.WF S4000x64 S64x64 S4000x64 [1] [0] [0] [1] [] []
  dot_S4000x64_S64x32_S4000x32_1_0_0_1_n_n_wf : DotDims.WF S4000x64 S64x32 S4000x32 [1] [0] [0] [1] [] []
  gather_S100000x32_S1200000x1_S1200000x32_1_0_n_n_0_1_132_wf : GatherDims.WF S100000x32 S1200000x1 S1200000x32 [1] [0] [] [0] [] 1 ![1, 32]
  scatter_S100000x32_S1200000x1_S1200000x32_1_0_0_1_wf : ScatterDims.WF S100000x32 S1200000x1 S1200000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S100000x64.size a
  hwx0_1 : ∀ i : grid0.Coords, EltTy.bits .f32 = 32 ∨ (Rect.block (s := S100000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x32.size a ≤ S64x32.size a
  hwx0_6 : ∀ i : grid0.Coords, EltTy.bits .f32 = 32 ∨ (Rect.block (s := S64x32) S64x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x64.size a ≤ S100000x64.size a
  hwx0_7 : ∀ i : grid0.Coords, EltTy.bits .f32 = 32 ∨ (Rect.block (s := S100000x64) S4000x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x32.size a ≤ S100000x32.size a
  hwx0_8 : ∀ i : grid0.Coords, EltTy.bits .f32 = 32 ∨ (Rect.block (s := S100000x32) S4000x32.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x32.size a ≤ S100000x32.size a
  hwx1_0 : ∀ i : grid1.Coords, EltTy.bits .f32 = 32 ∨ (Rect.block (s := S100000x32) S4000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .f32 = 32 ∨ (Rect.block (s := S100000x64) S4000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32.size a ≤ S32.size a
  hwx1_4 : ∀ i : grid1.Coords, EltTy.bits .f32 = 32 ∨ (Rect.block (s := S32) S32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x32.size a ≤ S100000x32.size a
  hwx1_5 : ∀ i : grid1.Coords, EltTy.bits .f32 = 32 ∨ (Rect.block (s := S100000x32) S4000x32.size (cc1_transform_5 i) (hinb1_5 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x64_S64x32_S4000x32_1_0_0_1_n_n : DotDims S4000x64 S64x32 S4000x32 where
  lhsContracting := [1]
  rhsContracting := [0]
  lhsNonContracting := [0]
  rhsNonContracting := [1]
  lhsBatch := []
  rhsBatch := []
  wf := dot_S4000x64_S64x32_S4000x32_1_0_0_1_n_n_wf
def gather_S100000x32_S1200000x1_S1200000x32_1_0_n_n_0_1_132 : GatherDims S100000x32 S1200000x1 S1200000x32 where
  offsetDims := [1]
  collapsedSliceDims := [0]
  operandBatchingDims := []
  startIndicesBatchingDims := []
  startIndexMap := [0]
  indexVectorDim := 1
  sliceSizes := ![1, 32]
  wf := gather_S100000x32_S1200000x1_S1200000x32_1_0_n_n_0_1_132_wf
def scatter_S100000x32_S1200000x1_S1200000x32_1_0_0_1 : ScatterDims S100000x32 S1200000x1 S1200000x32 where
  updateWindowDims := [1]
  insertedWindowDims := [0]
  scatterDimsToOperandDims := [0]
  indexVectorDim := 1
  wf := scatter_S100000x32_S1200000x1_S1200000x32_1_0_0_1_wf

abbrev win0_0 : Pipeline.Window sig grid0 :=
  Pipeline.Window.ofSpec (Memref.whole main_v22) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S64x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23_0) S4000x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v23_1) S4000x32.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v33) S4000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23_0) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S4000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S100000 : Shape := ⟨1, ![100000]⟩
abbrev S100000x1 : Shape := ⟨2, ![100000, 1]⟩
abbrev S1x64 : Shape := ⟨2, ![1, 64]⟩
abbrev S100000x32 : Shape := ⟨2, ![100000, 32]⟩
abbrev S1x32 : Shape := ⟨2, ![1, 32]⟩

abbrev nBuf : Space → Nat
  | .hbm => 77
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S64x32, .f32⟩
  | .hbm, ⟨7, _⟩ => ⟨S32, .f32⟩
  | .hbm, ⟨8, _⟩ => ⟨S1x1200000, .i32⟩
  | .hbm, ⟨9, _⟩ => ⟨S1200000, .i32⟩
  | .hbm, ⟨10, _⟩ => ⟨S1x1200000, .i32⟩
  | .hbm, ⟨11, _⟩ => ⟨S1200000, .i32⟩
  | .hbm, ⟨12, _⟩ => ⟨S_, .i32⟩
  | .hbm, ⟨13, _⟩ => ⟨S1200000, .i32⟩
  | .hbm, ⟨14, _⟩ => ⟨S1200000, .i1⟩
  | .hbm, ⟨15, _⟩ => ⟨S_, .i32⟩
  | .hbm, ⟨16, _⟩ => ⟨S1200000, .i32⟩
  | .hbm, ⟨17, _⟩ => ⟨S1200000, .i32⟩
  | .hbm, ⟨18, _⟩ => ⟨S1200000, .i32⟩
  | .hbm, ⟨19, _⟩ => ⟨S1200000x1, .i32⟩
  | .hbm, ⟨20, _⟩ => ⟨S1200000x64, .f32⟩
  | .hbm, ⟨21, _⟩ => ⟨S_, .f32⟩
  | .hbm, ⟨22, _⟩ => ⟨S100000x64, .f32⟩
  | .hbm, ⟨23, _⟩ => ⟨S1200000x1, .i32⟩
  | .hbm, ⟨24, _⟩ => ⟨S100000x64, .f32⟩
  | .hbm, ⟨25, _⟩ => ⟨S_, .f32⟩
  | .hbm, ⟨26, _⟩ => ⟨S1200000, .f32⟩
  | .hbm, ⟨27, _⟩ => ⟨S_, .f32⟩
  | .hbm, ⟨28, _⟩ => ⟨S100000, .f32⟩
  | .hbm, ⟨29, _⟩ => ⟨S1200000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S_, .i32⟩
  | .hbm, ⟨47, _⟩ => ⟨S1200000, .i32⟩
  | .hbm, ⟨48, _⟩ => ⟨S1200000, .i1⟩
  | .hbm, ⟨49, _⟩ => ⟨S_, .i32⟩
  | .hbm, ⟨50, _⟩ => ⟨S1200000, .i32⟩
  | .hbm, ⟨51, _⟩ => ⟨S1200000, .i32⟩
  | .hbm, ⟨52, _⟩ => ⟨S1200000, .i32⟩
  | .hbm, ⟨53, _⟩ => ⟨S1200000x1, .i32⟩
  | .hbm, ⟨54, _⟩ => ⟨S1200000x64, .f32⟩
  | .hbm, ⟨55, _⟩ => ⟨S_, .f32⟩
  | .hbm, ⟨56, _⟩ => ⟨S100000x64, .f32⟩
  | .hbm, ⟨57, _⟩ => ⟨S1200000x1, .i32⟩
  | .hbm, ⟨58, _⟩ => ⟨S100000x64, .f32⟩
  | .hbm, ⟨59, _⟩ => ⟨S_, .f32⟩
  | .hbm, ⟨60, _⟩ => ⟨S1200000, .f32⟩
  | .hbm, ⟨61, _⟩ => ⟨S_, .f32⟩
  | .hbm, ⟨62, _⟩ => ⟨S100000, .f32⟩
  | .hbm, ⟨63, _⟩ => ⟨S1200000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x64, .f32⟩
  | .hbm, ⟨70, _⟩ => ⟨S100000x64, .f32⟩
  | .hbm, ⟨71, _⟩ => ⟨S100000x32, .f32⟩
  | .hbm, ⟨72, _⟩ => ⟨S1x32, .f32⟩
  | .hbm, ⟨73, _⟩ => ⟨S100000x32, .f32⟩
  | .hbm, ⟨74, _⟩ => ⟨S100000x32, .f32⟩
  | .hbm, ⟨75, _⟩ => ⟨S100000x32, .f32⟩
  | .hbm, ⟨76, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.KernelRun.lean ====
/-
  The idealized kernel's run with its result read: every weakly fair execution of @main terminates, nothing faulting, the
  argument arrays end as launched, and the result array ends at the contents the last region leaves it with — the fold
  of the program's four segments (host operations, first region, host operations, second region) over the launch memory.
  The argument is the one that gives the frame; the only addition is that the final state is also read at the result.
-/
import proofs.«136544_j72997264162856_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array at the last boundary's contents and the arguments as launched. -/
theorem run_out : θ_run defs (onTc (τ := τ) (main (F := F))) ⟨m, fun _ => 0, ρ⟩ (fun r => ∀ c : Dev nD,
      r.2.mem ((c.tc : Thread nD τ).loc main_v34) = W4 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v34 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Run

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.LibRows.lean ====
/-
  Rows of a table gathered at, and accumulated into, integer row numbers.

  `x[idx]` of a table `x : [N, C]` (or `[N]`) at row numbers `idx : [E, 1]` reads, for edge `e`, the row whose number is
  `idx[e, 0]` read as a signed integer and clamped into `[0, N − 1]` (`rowOf`). A `segment_sum` of messages `upd : [E, C]`
  (or `[E]`) at row numbers `idx` adds, into row `d`, the messages of exactly those edges `e` whose number `idx[e, 0]`, read
  signed and NOT clamped, is `d` (`edgesInto`): an edge whose number is outside `[0, N)` is dropped. The three sums of
  one program — onto `[N]`, onto `[N, C]` for each width — run over the SAME set of edges, and for an edge of that set the
  clamped row is `d` itself.
-/
import Idealize.ShloMosaic.PureOps.Ideal
import Idealize.ShloMosaic.Lib.ValueIdx

noncomputable section

namespace Cert.Lib.Rows

open Idealize.ShloMosaic Idealize.ShloMosaic.ValueIdx

/-- The row a gather's start index selects: the word read signed, clamped into `[0, N − 1]`. -/
def rowOf (N : Nat) (hN : 0 < N) {w : Nat} (v : BitVec w) : Fin N := ⟨min v.toInt.toNat (N - 1), by omega⟩

/-- The edges a scatter sends to row `d`: those whose row number, read signed, is `d`. -/
def edgesInto {N E w : Nat} (idx : IVec ⟨2, ![E, 1]⟩ w) (d : Fin N) : Finset (Fin E) :=
  Finset.univ.filter fun e => (idx (ix2 e (0 : Fin 1))).toInt = (d.val : Int)

theorem mem_edgesInto {N E w : Nat} (idx : IVec ⟨2, ![E, 1]⟩ w) (d : Fin N) (e : Fin E) :
    e ∈ edgesInto idx d ↔ (idx (ix2 e (0 : Fin 1))).toInt = (d.val : Int) := by
  simp [edgesInto]

/-- For an edge sent to row `d`, the clamped row of the same number is `d`. -/
theorem rowOf_of_toInt {N : Nat} (hN : 0 < N) {w : Nat} (v : BitVec w) (d : Fin N) (h : v.toInt = (d.val : Int)) :
    rowOf N hN v = d := by
  apply Fin.ext
  show min v.toInt.toNat (N - 1) = d.val
  rw [h, Int.toNat_natCast]
  have := d.isLt
  omega

/-! ## Gathers -/

/-- The dimension numbers of `x[idx]` for a table `[N, C]` at row numbers `[E, 1]`. -/
abbrev gatherRowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- A gathered row, read at edge `e` and column `k`: the table at the clamped row of `idx[e, 0]`, column `k`. -/
theorem gatherRows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (gatherRowsDims N E C wf) x idx (ix2 e k) = x (ix2 (rowOf N hN (idx (ix2 e (0 : Fin 1)))) k) := by
  unfold Host.gather
  congr 1
  funext a
  refine Fin.ext ?_
  match a with
  | ⟨0, _⟩ =>
    show (gatherRowsDims N E C wf).start (ix2 e k) idx 0 + (gatherRowsDims N E C wf).batchCoord (ix2 e k) 0
      + (gatherRowsDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowsDims N E C wf).startIndexMap from List.mem_singleton.mpr rfl)]
    have hsi : (gatherRowsDims N E C wf).siIdx (ix2 e k) ⟨List.idxOf (0 : Fin 2) (gatherRowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gatherRowsDims N E C wf).start (ix2 e k) idx 1 + (gatherRowsDims N E C wf).batchCoord (ix2 e k) 1
      + (gatherRowsDims N E C wf).offCoord (ix2 e k) 1 = k.val
    rw [GatherDims.batchCoord_eq_zero _ _ _ List.not_mem_nil]
    have hs : (gatherRowsDims N E C wf).start (ix2 e k) idx 1 = 0 := by
      unfold GatherDims.start
      rw [dif_neg (show (1 : Fin 2) ∉ ([0] : List (Fin 2)) by decide)]
    rw [hs]
    have ho : (gatherRowsDims N E C wf).offCoord (ix2 e k) 1 = k.val := by
      unfold GatherDims.offCoord
      rw [dif_pos ((GatherDims.mem_sKept _ _).mpr ⟨(show (1 : Fin 2) ∉ ([0] : List (Fin 2)) by decide), List.not_mem_nil⟩)]
      rfl
    rw [ho]
    omega

/-- The dimension numbers of `x[idx]` for a flat table `[N]` at row numbers `[E, 1]`. -/
abbrev gatherEltsDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- A gathered element, read at edge `e`: the table at the clamped row of `idx[e, 0]`. -/
theorem gatherElts_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherEltsDims N E wf) x idx (ix1 e) = x (ix1 (rowOf N hN (idx (ix2 e (0 : Fin 1))))) := by
  unfold Host.gather
  congr 1
  funext a
  obtain rfl : a = 0 := Subsingleton.elim _ _
  refine Fin.ext ?_
  show (gatherEltsDims N E wf).start (ix1 e) idx 0 + (gatherEltsDims N E wf).batchCoord (ix1 e) 0
    + (gatherEltsDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherEltsDims N E wf).startIndexMap from List.mem_singleton.mpr rfl)]
  have hsi : (gatherEltsDims N E wf).siIdx (ix1 e) ⟨List.idxOf (0 : Fin 1) (gatherEltsDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Accumulating scatters -/

/-- An axis is kept exactly when it is not listed. -/
theorem mem_kept {s : Shape} (axes : List (Fin s.rank)) (a : Fin s.rank) : a ∈ s.kept axes ↔ a ∉ axes := by
  simp [Shape.kept, List.mem_filter, List.mem_finRange]

/-- The dimension numbers of a `segment_sum` of rows `[E, C]` into `[N, C]` at row numbers `[E, 1]`. -/
abbrev scatterRowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section ScatterRows
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k : Fin C)

/-- On the row axis an update starts at its edge's row number, read signed. -/
theorem scatterRows_start0 : (scatterRowsDims N E C wf).start (ix2 e k) idx 0 = (idx (ix2 e (0 : Fin 1))).toInt := by
  unfold ScatterDims.start
  rw [dif_pos (show (0 : Fin 2) ∈ (scatterRowsDims N E C wf).scatterDimsToOperandDims from List.mem_singleton.mpr rfl)]
  have hsi : (scatterRowsDims N E C wf).siIdx (ix2 e k) ⟨List.idxOf (0 : Fin 2) (scatterRowsDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis it starts at zero … -/
theorem scatterRows_start1 : (scatterRowsDims N E C wf).start (ix2 e k) idx 1 = 0 := by
  unfold ScatterDims.start
  rw [dif_neg (show (1 : Fin 2) ∉ ([0] : List (Fin 2)) by decide)]

/-- … the row axis has no window coordinate … -/
theorem scatterRows_window0 : (scatterRowsDims N E C wf).window (ix2 e k) 0 = 0 := by
  unfold ScatterDims.window
  rw [dif_neg (fun h => ((mem_kept _ _).mp h) (List.mem_singleton.mpr rfl))]

/-- … and the column axis has the update's column. -/
theorem scatterRows_window1 : (scatterRowsDims N E C wf).window (ix2 e k) 1 = k.val := by
  unfold ScatterDims.window
  rw [dif_pos ((mem_kept _ _).mpr (show (1 : Fin 2) ∉ ([0] : List (Fin 2)) by decide))]
  rfl

/-- WHERE AN UPDATE LANDS: update `(e, k)` lands on element `(d, k')` exactly when edge `e`'s row number, read signed,
    is `d` and the columns agree. -/
theorem scatterRows_resultIdx_iff (d : Fin N) (k' : Fin C) :
    (scatterRowsDims N E C wf).resultIdx? (ix2 e k) idx = some (ix2 d k')
      ↔ (idx (ix2 e (0 : Fin 1))).toInt = (d.val : Int) ∧ k = k' := by
  unfold ScatterDims.resultIdx?
  constructor
  · intro h
    by_cases hb : ∀ a, 0 ≤ (scatterRowsDims N E C wf).start (ix2 e k) idx a + (scatterRowsDims N E C wf).window (ix2 e k) a
        ∧ (scatterRowsDims N E C wf).start (ix2 e k) idx a + (scatterRowsDims N E C wf).window (ix2 e k) a < (⟨2, ![N, C]⟩ : Shape).size a
    · rw [dif_pos hb] at h
      have hf := Option.some.inj h
      have h0 : ((scatterRowsDims N E C wf).start (ix2 e k) idx 0 + ((scatterRowsDims N E C wf).window (ix2 e k) 0 : Nat)).toNat = d.val :=
        congrArg Fin.val (congrFun hf 0)
      have h1 : ((scatterRowsDims N E C wf).start (ix2 e k) idx 1 + ((scatterRowsDims N E C wf).window (ix2 e k) 1 : Nat)).toNat = k'.val :=
        congrArg Fin.val (congrFun hf 1)
      have hb0 := (hb 0).1
      rw [scatterRows_start0, scatterRows_window0] at h0 hb0
      rw [scatterRows_start1, scatterRows_window1] at h1
      exact ⟨by omega, Fin.ext (by omega)⟩
    · rw [dif_neg hb] at h
      exact absurd h (by simp)
  · rintro ⟨hv, rfl⟩
    have hb : ∀ a, 0 ≤ (scatterRowsDims N E C wf).start (ix2 e k) idx a + (scatterRowsDims N E C wf).window (ix2 e k) a
        ∧ (scatterRowsDims N E C wf).start (ix2 e k) idx a + (scatterRowsDims N E C wf).window (ix2 e k) a < (⟨2, ![N, C]⟩ : Shape).size a := by
      intro a
      match a with
      | ⟨0, _⟩ =>
        show 0 ≤ (scatterRowsDims N E C wf).start (ix2 e k) idx 0 + ((scatterRowsDims N E C wf).window (ix2 e k) 0 : Nat)
          ∧ (scatterRowsDims N E C wf).start (ix2 e k) idx 0 + ((scatterRowsDims N E C wf).window (ix2 e k) 0 : Nat) < (N : Int)
        rw [scatterRows_start0, scatterRows_window0, hv]
        have := d.isLt
        omega
      | ⟨1, _⟩ =>
        show 0 ≤ (scatterRowsDims N E C wf).start (ix2 e k) idx 1 + ((scatterRowsDims N E C wf).window (ix2 e k) 1 : Nat)
          ∧ (scatterRowsDims N E C wf).start (ix2 e k) idx 1 + ((scatterRowsDims N E C wf).window (ix2 e k) 1 : Nat) < (C : Int)
        rw [scatterRows_start1, scatterRows_window1]
        have := k.isLt
        omega
    rw [dif_pos hb]
    refine congrArg some (funext fun a => Fin.ext ?_)
    match a with
    | ⟨0, _⟩ =>
      show ((scatterRowsDims N E C wf).start (ix2 e k) idx 0 + ((scatterRowsDims N E C wf).window (ix2 e k) 0 : Nat)).toNat = d.val
      rw [scatterRows_start0, scatterRows_window0, hv]
      omega
    | ⟨1, _⟩ =>
      show ((scatterRowsDims N E C wf).start (ix2 e k) idx 1 + ((scatterRowsDims N E C wf).window (ix2 e k) 1 : Nat)).toNat = k.val
      rw [scatterRows_start1, scatterRows_window1]
      omega

/-- A `segment_sum` into `[N, C]`, read at `(d, k)`: what was there plus the messages, at column `k`, of the edges sent to
    row `d`. -/
theorem scatterAddRows_apply (x : (⟨2, ![N, C]⟩ : Shape).Idx → EReal) (upd : (⟨2, ![E, C]⟩ : Shape).Idx → EReal) (d : Fin N) :
    Ideal.hostScatterAdd (scatterRowsDims N E C wf) x idx upd (ix2 d k) = x (ix2 d k) + ∑ e ∈ edgesInto idx d, upd (ix2 e k) := by
  unfold Ideal.hostScatterAdd
  congr 1
  have key : ∀ j : (⟨2, ![E, C]⟩ : Shape).Idx, (scatterRowsDims N E C wf).resultIdx? j idx = some (ix2 d k) →
      (idx (ix2 (j 0) (0 : Fin 1))).toInt = (d.val : Int) ∧ j = ix2 (j 0) k := by
    intro j hj
    have h := (scatterRows_resultIdx_iff wf idx (j 0) (j 1) d k).mp
      ((congrArg (fun q => (scatterRowsDims N E C wf).resultIdx? q idx) (eq_ix2 j)).symm.trans hj)
    exact ⟨h.1, (eq_ix2 j).trans (congrArg (fun q : Fin C => (ix2 (j 0) q : (⟨2, ![E, C]⟩ : Shape).Idx)) h.2)⟩
  refine Finset.sum_bij' (fun j _ => j 0) (fun e _ => ix2 e k) ?_ ?_ ?_ ?_ ?_
  · intro j hj
    exact (mem_edgesInto idx d (j 0)).mpr (key j (Finset.mem_filter.mp hj).2).1
  · intro e he
    exact Finset.mem_filter.mpr ⟨Finset.mem_univ _,
      (scatterRows_resultIdx_iff wf idx e k d k).mpr ⟨(mem_edgesInto idx d e).mp he, rfl⟩⟩
  · intro j hj
    exact (key j (Finset.mem_filter.mp hj).2).2.symm
  · intro e _
    rfl
  · intro j hj
    exact congrArg upd (key j (Finset.mem_filter.mp hj).2).2

end ScatterRows

/-- The dimension numbers of a `segment_sum` of elements `[E]` into `[N]` at row numbers `[E, 1]`. -/
abbrev scatterEltsDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section ScatterElts
variable {N E w : Nat} (wf : ScatterDims.WF ⟨1, ![N]⟩ ⟨2, ![E, 1]⟩ ⟨1, ![E]⟩ [] [0] [0] 1)
  (idx : IVec ⟨2, ![E, 1]⟩ w) (e : Fin E)

theorem scatterElts_start0 : (scatterEltsDims N E wf).start (ix1 e) idx 0 = (idx (ix2 e (0 : Fin 1))).toInt := by
  unfold ScatterDims.start
  rw [dif_pos (show (0 : Fin 1) ∈ (scatterEltsDims N E wf).scatterDimsToOperandDims from List.mem_singleton.mpr rfl)]
  have hsi : (scatterEltsDims N E wf).siIdx (ix1 e) ⟨List.idxOf (0 : Fin 1) (scatterEltsDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scatterElts_window0 : (scatterEltsDims N E wf).window (ix1 e) 0 = 0 := by
  unfold ScatterDims.window
  rw [dif_neg (fun h => ((mem_kept _ _).mp h) (List.mem_singleton.mpr rfl))]

/-- Update `e` lands on element `d` exactly when edge `e`'s row number, read signed, is `d`. -/
theorem scatterElts_resultIdx_iff (d : Fin N) :
    (scatterEltsDims N E wf).resultIdx? (ix1 e) idx = some (ix1 d) ↔ (idx (ix2 e (0 : Fin 1))).toInt = (d.val : Int) := by
  unfold ScatterDims.resultIdx?
  constructor
  · intro h
    by_cases hb : ∀ a, 0 ≤ (scatterEltsDims N E wf).start (ix1 e) idx a + (scatterEltsDims N E wf).window (ix1 e) a
        ∧ (scatterEltsDims N E wf).start (ix1 e) idx a + (scatterEltsDims N E wf).window (ix1 e) a < (⟨1, ![N]⟩ : Shape).size a
    · rw [dif_pos hb] at h
      have hf := Option.some.inj h
      have h0 : ((scatterEltsDims N E wf).start (ix1 e) idx 0 + ((scatterEltsDims N E wf).window (ix1 e) 0 : Nat)).toNat = d.val :=
        congrArg Fin.val (congrFun hf 0)
      have hb0 := (hb 0).1
      rw [scatterElts_start0, scatterElts_window0] at h0 hb0
      omega
    · rw [dif_neg hb] at h
      exact absurd h (by simp)
  · intro hv
    have hb : ∀ a, 0 ≤ (scatterEltsDims N E wf).start (ix1 e) idx a + (scatterEltsDims N E wf).window (ix1 e) a
        ∧ (scatterEltsDims N E wf).start (ix1 e) idx a + (scatterEltsDims N E wf).window (ix1 e) a < (⟨1, ![N]⟩ : Shape).size a := by
      intro a
      match a with
      | ⟨0, _⟩ =>
        show 0 ≤ (scatterEltsDims N E wf).start (ix1 e) idx 0 + ((scatterEltsDims N E wf).window (ix1 e) 0 : Nat)
          ∧ (scatterEltsDims N E wf).start (ix1 e) idx 0 + ((scatterEltsDims N E wf).window (ix1 e) 0 : Nat) < (N : Int)
        rw [scatterElts_start0, scatterElts_window0, hv]
        have := d.isLt
        omega
    rw [dif_pos hb]
    refine congrArg some (funext fun a => Fin.ext ?_)
    match a with
    | ⟨0, _⟩ =>
      show ((scatterEltsDims N E wf).start (ix1 e) idx 0 + ((scatterEltsDims N E wf).window (ix1 e) 0 : Nat)).toNat = d.val
      rw [scatterElts_start0, scatterElts_window0, hv]
      omega

/-- A `segment_sum` into `[N]`, read at `d`: what was there plus the messages of the edges sent to row `d`. -/
theorem scatterAddElts_apply (x : (⟨1, ![N]⟩ : Shape).Idx → EReal) (upd : (⟨1, ![E]⟩ : Shape).Idx → EReal) (d : Fin N) :
    Ideal.hostScatterAdd (scatterEltsDims N E wf) x idx upd (ix1 d) = x (ix1 d) + ∑ e ∈ edgesInto idx d, upd (ix1 e) := by
  unfold Ideal.hostScatterAdd
  congr 1
  refine Finset.sum_bij' (fun j _ => j 0) (fun e _ => ix1 e) ?_ ?_ ?_ ?_ ?_
  · intro j hj
    exact (mem_edgesInto idx d (j 0)).mpr ((scatterElts_resultIdx_iff wf idx (j 0) d).mp
      ((congrArg (fun q => (scatterEltsDims N E wf).resultIdx? q idx) (eq_ix1 j)).symm.trans (Finset.mem_filter.mp hj).2))
  · intro e he
    exact Finset.mem_filter.mpr ⟨Finset.mem_univ _, (scatterElts_resultIdx_iff wf idx e d).mpr ((mem_edgesInto idx d e).mp he)⟩
  · intro j _
    exact (eq_ix1 j).symm
  · intro e _
    rfl
  · intro j _
    exact congrArg upd (eq_ix1 j)

end ScatterElts

/-! ## Row numbers made nonnegative

`x[idx]` first turns a negative row number `v` into `v + N` (python's indexing from the end) and then gathers. For an edge
whose number, read signed, is a row `d` of the table, nothing changes. -/

/-- A row number that is a row of the table is not negative, so the python-style wrap leaves it alone. -/
theorem wrap_of_toInt (v c : BitVec 32) (d : Nat) (h : v.toInt = (d : Int)) :
    Scalar.select (IntOp.cmpi .slt v 0#32) (IntOp.addi v c) v = v := by
  have h0 : IntOp.cmpi .slt v 0#32 = 0#1 := by
    have hlt : ¬ v.toInt < 0 := by rw [h]; omega
    simp [IntOp.cmpi, BitVec.slt, hlt]
  rw [h0]
  exact if_neg (by decide)

end Cert.Lib.Rows

end
-- ==== Proof.LibMeanProject.lean ====
/-
  Averaging a family of rows and then projecting it, against projecting each row and then averaging.

  Over a finite set `S` of edges, each carrying a row `a e : κ → ℝ`, and a column of weights `w : κ → ℝ`, let
  `c = max (|S|, 1)` be the divisor of a mean that leaves an empty set at zero. The projected mean
  `∑ k, ((∑ e ∈ S, a e k) / c) · w k` is the mean of the projections `(∑ e ∈ S, ∑ k, a e k · w k) / c`: both are the double
  sum of `a e k · w k` times `1 / c`, because a product distributes over a finite sum of REAL numbers and the order of two
  finite sums does not matter. On the extended reals distributivity fails at the infinities, so the law is stated for
  families of real numbers read as extended reals; the count is the sum of ones over `S` onto zero, as a scatter-add
  of ones computes it, and the quotient is the extended reals' `Ideal.div`, which by a nonzero real is the product with
  its reciprocal.
-/
import Idealize.ShloMosaic.PureOps.Ideal

noncomputable section

namespace Cert.Lib.MeanProject

open Idealize.ShloMosaic

/-- The coercion of the reals into the extended reals commutes with a finite sum. -/
theorem coe_sum {ι : Type} (S : Finset ι) (f : ι → ℝ) : ((∑ e ∈ S, f e : ℝ) : EReal) = ∑ e ∈ S, (f e : EReal) := by
  classical
  induction S using Finset.induction_on with
  | empty => simp
  | insert a S ha ih => rw [Finset.sum_insert ha, Finset.sum_insert ha, EReal.coe_add, ih]

/-- A sum of ones over a finite set, onto zero, is the number of its elements. -/
theorem count_eq {ι : Type} (S : Finset ι) : (0 : EReal) + ∑ _e ∈ S, (1 : EReal) = ((S.card : ℝ) : EReal) := by
  have h : ∑ _e ∈ S, (1 : EReal) = ∑ _e ∈ S, (((1 : ℝ)) : EReal) := Finset.sum_congr rfl fun _ _ => EReal.coe_one.symm
  rw [zero_add, h, ← coe_sum, Finset.sum_const, nsmul_eq_mul, mul_one]

/-- The divisor of the mean: the count, or one for an empty set; a real number that is at least one. -/
theorem divisor_eq {ι : Type} (S : Finset ι) :
    max ((0 : EReal) + ∑ _e ∈ S, (1 : EReal)) 1 = ((max (S.card : ℝ) 1 : ℝ) : EReal) := by
  rw [count_eq, ← EReal.coe_one]
  exact (EReal.coe_strictMono.monotone.map_max).symm

theorem divisor_ne_zero {ι : Type} (S : Finset ι) : max (S.card : ℝ) 1 ≠ 0 :=
  ne_of_gt (lt_of_lt_of_le one_pos (le_max_right _ _))

/-- The law on the reals: a common factor `q` and the weights move through the two finite sums. -/
theorem real_law {ι κ : Type} [Fintype κ] (S : Finset ι) (a : ι → κ → ℝ) (w : κ → ℝ) (q : ℝ) :
    (∑ e ∈ S, ∑ k, a e k * w k) * q = ∑ k, ((∑ e ∈ S, a e k) * q) * w k := by
  rw [Finset.sum_comm, Finset.sum_mul]
  refine Finset.sum_congr rfl fun k _ => ?_
  rw [Finset.sum_mul, Finset.sum_mul, Finset.sum_mul]
  refine Finset.sum_congr rfl fun e _ => ?_
  ring

/-- THE LAW. The mean (by the count of `S`, or by one when `S` is empty) of the projections of the rows is the projection
    of the mean row, for real rows and real weights read as extended reals. -/
theorem mean_project {ι κ : Type} [Fintype κ] (S : Finset ι) (a : ι → κ → ℝ) (w : κ → ℝ) :
    Ideal.div ((0 : EReal) + ∑ e ∈ S, ∑ k, ((a e k : ℝ) : EReal) * ((w k : ℝ) : EReal)) (max ((0 : EReal) + ∑ _e ∈ S, (1 : EReal)) 1)
      = ∑ k, Ideal.div ((0 : EReal) + ∑ e ∈ S, ((a e k : ℝ) : EReal)) (max ((0 : EReal) + ∑ _e ∈ S, (1 : EReal)) 1) * ((w k : ℝ) : EReal) := by
  rw [divisor_eq, Ideal.div_coe (divisor_ne_zero S)]
  have hl : (0 : EReal) + ∑ e ∈ S, ∑ k, ((a e k : ℝ) : EReal) * ((w k : ℝ) : EReal) = ((∑ e ∈ S, ∑ k, a e k * w k : ℝ) : EReal) := by
    rw [zero_add, coe_sum]
    refine Finset.sum_congr rfl fun e _ => ?_
    rw [coe_sum]
    exact Finset.sum_congr rfl fun k _ => (EReal.coe_mul _ _).symm
  have hr : ∀ k, Ideal.div ((0 : EReal) + ∑ e ∈ S, ((a e k : ℝ) : EReal)) ((max (S.card : ℝ) 1 : ℝ) : EReal) * ((w k : ℝ) : EReal)
      = (((∑ e ∈ S, a e k) * (1 / max (S.card : ℝ) 1) * w k : ℝ) : EReal) := by
    intro k
    rw [Ideal.div_coe (divisor_ne_zero S), zero_add, ← coe_sum, ← EReal.coe_mul, ← EReal.coe_mul]
  rw [hl, ← EReal.coe_mul, Finset.sum_congr rfl fun k _ => hr k, ← coe_sum]
  exact congrArg _ (real_law S a w _)

end Cert.Lib.MeanProject

end
-- ==== Proof.LibDotNT.lean ====
/-
  The matrix product whose right operand is contracted along its rows, on the extended reals, index by index.

  For a left operand `a : [M, K]` and a right operand `w : [N, K]` the entry (r, j) of `a · wᵀ` is the finite sum
  `∑ k, a (r, k) * w (j, k)`: row r of `a` against row j of `w`. A finite sum on the extended reals is a sum in a
  commutative monoid, so no order, grouping or tiling of it matters, and nothing here asks any entry to be finite.
  Both the vector unit's matrix product into a zero accumulator and the host's dot_general, with these dimension
  numbers, are this sum; a layer adds one bias entry per column, and two layers compose.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDotNT

open Idealize.ShloMosaic Idealize.ShloMosaic.ValueIdx

/-- Entry (r, j) of `a · wᵀ`: row r of `a : [M, K]` against row j of `w : [N, K]`. -/
def rowDot {M K N : ℕ} (a : (⟨2, ![M, K]⟩ : Shape).Idx → EReal) (w : (⟨2, ![N, K]⟩ : Shape).Idx → EReal) :
    (⟨2, ![M, N]⟩ : Shape).Idx → EReal :=
  fun i => ∑ k : Fin K, a (ix2 (i 0) k) * w (ix2 (i 1) k)

/-- The same at an index given by its coordinates. -/
theorem rowDot_ix2 {M K N : ℕ} (a : (⟨2, ![M, K]⟩ : Shape).Idx → EReal) (w : (⟨2, ![N, K]⟩ : Shape).Idx → EReal)
    (r : Fin M) (j : Fin N) : rowDot a w (ix2 r j) = ∑ k : Fin K, a (ix2 r k) * w (ix2 j k) := rfl

/-- An entry of the product reads one row of each operand: operands that agree on those rows give the same entry. -/
theorem rowDot_congr {M M' K N N' : ℕ} (a : (⟨2, ![M, K]⟩ : Shape).Idx → EReal) (w : (⟨2, ![N, K]⟩ : Shape).Idx → EReal)
    (a' : (⟨2, ![M', K]⟩ : Shape).Idx → EReal) (w' : (⟨2, ![N', K]⟩ : Shape).Idx → EReal)
    (r : Fin M) (j : Fin N) (r' : Fin M') (j' : Fin N')
    (ha : ∀ k : Fin K, a (ix2 r k) = a' (ix2 r' k)) (hw : ∀ k : Fin K, w (ix2 j k) = w' (ix2 j' k)) :
    rowDot a w (ix2 r j) = rowDot a' w' (ix2 r' j') := by
  rw [rowDot_ix2, rowDot_ix2]
  exact Finset.sum_congr rfl fun k _ => congrArg₂ (· * ·) (ha k) (hw k)

/-! ## The contraction index of an `[M, K] × [N, K]` product is `Fin K` -/

theorem tr_lhs0 (M K N : ℕ) (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

theorem tr_rhs0 (M K N : ℕ) (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The sum over the product's contraction index, re-indexed by `Fin K`, is the row-against-row sum. -/
theorem tr_sum (M K N : ℕ) (x : (⟨2, ![M, K]⟩ : Shape).Idx → EReal) (w : (⟨2, ![N, K]⟩ : Shape).Idx → EReal)
    (i : (⟨2, ![M, N]⟩ : Shape).Idx) :
    ∑ q : (DotDims.transposedRhs M K N).contr.Idx,
        x ((DotDims.transposedRhs M K N).lhsIdx i q) * w ((DotDims.transposedRhs M K N).rhsIdx i q)
      = rowDot x w i := by
  unfold rowDot
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx i ((contrEquiv1 (DotDims.transposedRhs M K N) K rfl rfl).symm k)
      = ix2 (i 0) k :=
    funext fun a => Fin.ext (by
      match a with
      | ⟨0, _⟩ => exact tr_lhs0 M K N i _
      | ⟨1, _⟩ => exact ((DotDims.transposedRhs M K N).lhsIdx_val_of_single rfl i _).trans hk)
  have er : (DotDims.transposedRhs M K N).rhsIdx i ((contrEquiv1 (DotDims.transposedRhs M K N) K rfl rfl).symm k)
      = ix2 (i 1) k :=
    funext fun a => Fin.ext (by
      match a with
      | ⟨0, _⟩ => exact tr_rhs0 M K N i _
      | ⟨1, _⟩ => exact ((DotDims.transposedRhs M K N).rhsIdx_val_of_single rfl i _).trans hk)
  exact congrArg₂ (· * ·) (congrArg x el) (congrArg w er)

/-- A vector unit's matrix product with these dimension numbers into the zero accumulator, at an entry. -/
theorem matmul_tr {M K N : ℕ} {φ₁ φ₂ : FTy} (x : FVec Ideal ⟨2, ![M, K]⟩ φ₁) (w : FVec Ideal ⟨2, ![N, K]⟩ φ₂)
    (i : (⟨2, ![M, N]⟩ : Shape).Idx) :
    FloatOps.matmul (DotDims.transposedRhs M K N) none x w (constant (F := Ideal) ⟨2, ![M, N]⟩ .f32 0x00000000#32) i
      = rowDot x w i := by
  rw [Ideal.matmul_constant_zero_apply]
  exact tr_sum M K N x w i

/-- The host's dot_general of the same dimension numbers, at an entry. -/
theorem dotGeneral_tr {M K N : ℕ} (sched : HostSchedule) (x : (⟨2, ![M, K]⟩ : Shape).Idx → EReal)
    (w : (⟨2, ![N, K]⟩ : Shape).Idx → EReal) (i : (⟨2, ![M, N]⟩ : Shape).Idx) :
    FloatOps.dotGeneral (F := Ideal) (φ₁ := .f32) (φ₂ := .f32) (DotDims.transposedRhs M K N) none sched x w i
      = rowDot x w i := by
  rw [Ideal.dotGeneral_apply]
  exact tr_sum M K N x w i

/-! ## A layer, and two of them -/

/-- A layer `a · wᵀ + b`: the bias entry of column j added to every row's entry in that column. -/
def layer {M K N : ℕ} (a : (⟨2, ![M, K]⟩ : Shape).Idx → EReal) (w : (⟨2, ![N, K]⟩ : Shape).Idx → EReal)
    (b : (⟨1, ![N]⟩ : Shape).Idx → EReal) : (⟨2, ![M, N]⟩ : Shape).Idx → EReal :=
  fun i => rowDot a w i + b (ix1 (i 1))

theorem layer_ix2 {M K N : ℕ} (a : (⟨2, ![M, K]⟩ : Shape).Idx → EReal) (w : (⟨2, ![N, K]⟩ : Shape).Idx → EReal)
    (b : (⟨1, ![N]⟩ : Shape).Idx → EReal) (r : Fin M) (j : Fin N) :
    layer a w b (ix2 r j) = (∑ k : Fin K, a (ix2 r k) * w (ix2 j k)) + b (ix1 j) := rfl

/-- Two layers with no function between them: `(x · w₁ᵀ + b₁) · w₂ᵀ + b₂`. -/
def twoLayers {B M K : ℕ} (x : (⟨2, ![B, M]⟩ : Shape).Idx → EReal) (w1 : (⟨2, ![K, M]⟩ : Shape).Idx → EReal)
    (b1 : (⟨1, ![K]⟩ : Shape).Idx → EReal) (w2 : (⟨2, ![M, K]⟩ : Shape).Idx → EReal)
    (b2 : (⟨1, ![M]⟩ : Shape).Idx → EReal) : (⟨2, ![B, M]⟩ : Shape).Idx → EReal :=
  layer (layer x w1 b1) w2 b2

/-- Entry (r, j) of two layers, written out: it reads row r of `x`, all of `w₁` and `b₁`, row j of `w₂` and entry j of `b₂`. -/
theorem twoLayers_ix2 {B M K : ℕ} (x : (⟨2, ![B, M]⟩ : Shape).Idx → EReal) (w1 : (⟨2, ![K, M]⟩ : Shape).Idx → EReal)
    (b1 : (⟨1, ![K]⟩ : Shape).Idx → EReal) (w2 : (⟨2, ![M, K]⟩ : Shape).Idx → EReal)
    (b2 : (⟨1, ![M]⟩ : Shape).Idx → EReal) (r : Fin B) (j : Fin M) :
    twoLayers x w1 b1 w2 b2 (ix2 r j)
      = (∑ k : Fin K, ((∑ l : Fin M, x (ix2 r l) * w1 (ix2 k l)) + b1 (ix1 k)) * w2 (ix2 j k)) + b2 (ix1 j) := rfl

end Cert.LibDotNT

end
-- ==== Proof.LibMeanConv.lean ====
/-
  One layer of a graph convolution with mean aggregation, on the extended reals, index by index.

  For node features `h : [n, d]`, the sum `A : [n, d]` of each node's in-neighbours' features, a per-node
  divisor `q : [n]`, weights `wl wr : [e, d]` and a bias `b : [e]`, the layer's entry (r, j) is
      max ( (∑ k, (A (r, k) / q r) * wl (j, k)) + b j + ∑ k, h (r, k) * wr (j, k) ,  z )
  with `z` the floor of the clamp. Written with the reciprocal taken first, `A (r, k) * (1 / q r)`, and with the
  three summands in another order, it is the same number: dividing by `y ≠ 0` IS multiplying by `y⁻¹` on the
  extended reals, infinite `y` included, so `x * (1 / y) = x * (1 * y⁻¹) = x * y⁻¹ = x / y` for EVERY `x`, and
  addition there is commutative and associative. Nothing is asked to be finite. The divisor of a mean over a
  neighbourhood is `max (count, 1) ≥ 1`, never zero.
  Each entry reads one row of `A`, of `h` and of the scale: equal rows give equal entries, which is how a block of
  rows of the layer is the layer of the block.
  Also here: the word of 1.0 is the extended real 1, and a column `[a, 1]` broadcast along the rows to `[a, b]` reads,
  at (p, c), the column's entry of row p. Everything is generic in the extents.
-/
import Idealize.ShloMosaic.PureOps.Ideal
import Idealize.ShloMosaic.PureOps.Ideal.Laws
import Idealize.ShloMosaic.Lib.ValueIdx
import Idealize.ShloMosaic.Lib.Pipeline.Value
import proofs.«136544_j72997264162856_2_alg».proof.Proof.LibDotNT

noncomputable section

namespace Cert.MeanConv

open Idealize.ShloMosaic Idealize.ShloMosaic.ValueIdx Cert.LibDotNT

/-! ## The two scalar facts -/

/-- The single-precision word of 1.0 is the extended real 1. -/
theorem word_one : Ideal.ofBits .f32 0x3F800000#32 = 1 := by
  simp [Ideal.ofBits, Ideal.ieee]
  rw [← EReal.coe_mul]; norm_num

/-- Multiplying by the reciprocal of a nonzero extended real is dividing by it, whatever the numerator. -/
theorem mul_recip (x y : EReal) (hy : y ≠ 0) : x * Ideal.div 1 y = Ideal.div x y := by
  unfold Ideal.div
  rw [if_neg hy, if_neg hy, one_mul]

/-- A count floored at one is not zero. -/
theorem max_one_ne_zero (c : EReal) : max c 1 ≠ 0 :=
  (lt_of_lt_of_le zero_lt_one (le_max_right c 1)).ne'

/-! ## A column broadcast along the rows -/

/-- An `[a, 1]` column broadcast to `[a, b]` reads, at `(p, c)`, the column's entry of row `p`. -/
theorem broadcast_column {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The layer, two ways -/

/-- The layer with each row of the neighbour sum SCALED by that row's factor `s (r, 0)` before the product, the two
    products added first and the bias row `b (0, j)` last. -/
def scaled {n d e : ℕ} (A h : (⟨2, ![n, d]⟩ : Shape).Idx → EReal) (s : (⟨2, ![n, 1]⟩ : Shape).Idx → EReal)
    (wl wr : (⟨2, ![e, d]⟩ : Shape).Idx → EReal) (b : (⟨2, ![1, e]⟩ : Shape).Idx → EReal) (z : EReal) :
    (⟨2, ![n, e]⟩ : Shape).Idx → EReal :=
  fun i => max ((rowDot (fun j => A j * s (ix2 (j 0) (0 : Fin 1))) wl i + rowDot h wr i) + b (ix2 (0 : Fin 1) (i 1))) z

/-- The layer with each row of the neighbour sum DIVIDED by that row's divisor `q r`, the bias `b j` added to the
    first product and the second product last. -/
def divided {n d e : ℕ} (A h : (⟨2, ![n, d]⟩ : Shape).Idx → EReal) (q : (⟨1, ![n]⟩ : Shape).Idx → EReal)
    (wl wr : (⟨2, ![e, d]⟩ : Shape).Idx → EReal) (b : (⟨1, ![e]⟩ : Shape).Idx → EReal) (z : EReal) :
    (⟨2, ![n, e]⟩ : Shape).Idx → EReal :=
  fun i => max ((rowDot (fun j => Ideal.div (A j) (q (ix1 (j 0)))) wl i + b (ix1 (i 1))) + rowDot h wr i) z

/-- The two are one function when the scale is the reciprocal of a divisor that is nowhere zero and the bias row is
    the bias. -/
theorem scaled_eq_divided {n d e : ℕ} (A h : (⟨2, ![n, d]⟩ : Shape).Idx → EReal)
    (s : (⟨2, ![n, 1]⟩ : Shape).Idx → EReal) (q : (⟨1, ![n]⟩ : Shape).Idx → EReal)
    (wl wr : (⟨2, ![e, d]⟩ : Shape).Idx → EReal) (b2 : (⟨2, ![1, e]⟩ : Shape).Idx → EReal)
    (b : (⟨1, ![e]⟩ : Shape).Idx → EReal) (z : EReal)
    (hs : ∀ r : Fin n, s (ix2 r (0 : Fin 1)) = Ideal.div 1 (q (ix1 r)))
    (hq : ∀ r : Fin n, q (ix1 r) ≠ 0)
    (hb : ∀ j : Fin e, b2 (ix2 (0 : Fin 1) j) = b (ix1 j)) :
    scaled A h s wl wr b2 z = divided A h q wl wr b z := by
  funext i
  have hrow : (fun j : (⟨2, ![n, d]⟩ : Shape).Idx => A j * s (ix2 (j 0) (0 : Fin 1)))
      = fun j => Ideal.div (A j) (q (ix1 (j 0))) :=
    funext fun j => (congrArg (A j * ·) (hs (j 0))).trans (mul_recip (A j) _ (hq (j 0)))
  show max ((rowDot (fun j => A j * s (ix2 (j 0) (0 : Fin 1))) wl i + rowDot h wr i) + b2 (ix2 (0 : Fin 1) (i 1))) z
      = max ((rowDot (fun j => Ideal.div (A j) (q (ix1 (j 0)))) wl i + b (ix1 (i 1))) + rowDot h wr i) z
  rw [hrow, hb (i 1), add_right_comm]

/-- Entry (r, j) of the scaled layer reads row r of the neighbour sum, of the features and of the scale: arrays
    with those rows equal, of any heights, give the same entry. -/
theorem scaled_row_congr {n n' d e : ℕ} (A h : (⟨2, ![n, d]⟩ : Shape).Idx → EReal) (s : (⟨2, ![n, 1]⟩ : Shape).Idx → EReal)
    (A' h' : (⟨2, ![n', d]⟩ : Shape).Idx → EReal) (s' : (⟨2, ![n', 1]⟩ : Shape).Idx → EReal)
    (wl wr : (⟨2, ![e, d]⟩ : Shape).Idx → EReal) (b : (⟨2, ![1, e]⟩ : Shape).Idx → EReal) (z : EReal)
    (r : Fin n) (r' : Fin n') (j : Fin e)
    (hA : ∀ k : Fin d, A (ix2 r k) = A' (ix2 r' k)) (hh : ∀ k : Fin d, h (ix2 r k) = h' (ix2 r' k))
    (hsr : s (ix2 r (0 : Fin 1)) = s' (ix2 r' (0 : Fin 1))) :
    scaled A h s wl wr b z (ix2 r j) = scaled A' h' s' wl wr b z (ix2 r' j) := by
  show max ((rowDot (fun j => A j * s (ix2 (j 0) (0 : Fin 1))) wl (ix2 r j) + rowDot h wr (ix2 r j)) + b (ix2 (0 : Fin 1) j)) z
      = max ((rowDot (fun j => A' j * s' (ix2 (j 0) (0 : Fin 1))) wl (ix2 r' j) + rowDot h' wr (ix2 r' j)) + b (ix2 (0 : Fin 1) j)) z
  rw [rowDot_congr (fun j => A j * s (ix2 (j 0) (0 : Fin 1))) wl (fun j => A' j * s' (ix2 (j 0) (0 : Fin 1))) wl r j r' j
        (fun k => by show A (ix2 r k) * s (ix2 r (0 : Fin 1)) = A' (ix2 r' k) * s' (ix2 r' (0 : Fin 1)); rw [hA k, hsr])
        (fun _ => rfl),
      rowDot_congr h wr h' wr r j r' j hh (fun _ => rfl)]

end Cert.MeanConv

end
-- ==== Proof.LibSageSum.lean ====
/-
  A two-layer graph convolution with SUM aggregation over a finite edge set, on the extended reals.

  Nodes `Fin N`, edges `Fin E`; edge `e` reads the row `src e` and contributes to node `r` when `D e r` holds (an edge whose
  target is no node contributes nowhere). For a node table `X : Fin N → Fin C → EReal` the neighbour sum is
  `nbr X r k = ∑ e, if D e r then X (src e) k else 0`.

  * the hidden layer: `hidden x r j = max ((∑ k, nbr x r k · wl j k + b j) + ∑ k, x r k · wr j k) 0`;
  * the output layer, projected AFTER the neighbour sum: `outAfter h r o = (∑ j, nbr h r j · wl o j + b o) + ∑ j, h r j · wr o j`;
  * the output layer with the left projection applied BEFORE the neighbour sum (the rows `t r' o = ∑ j, h r' j · wl o j` are
    summed over the edges): `outBefore h r o = (nbr t r o + ∑ j, h r j · wr o j) + b o`.

  The two output layers differ by exchanging a finite sum over edges with a finite sum over features and by moving a factor
  across the edge sum; on the extended reals that needs the entries of `h` and of `wl` to be real (a product with an
  infinity does not distribute), and then `outBefore = outAfter`; the hidden layer of real inputs is real. This file holds the
  definitions; the two theorems (`outBefore_eq_outAfter`, `hidden_real`) are in LibSageSumLaw.lean. Everything is generic in the sizes.
-/
import Mathlib.Data.EReal.Operations
import Mathlib.Algebra.BigOperators.Ring.Finset
import Mathlib.Algebra.Order.BigOperators.Group.Finset

noncomputable section

open scoped BigOperators

namespace Cert.LibSageSum

variable {N E : ℕ} (src : Fin E → Fin N) (D : Fin E → Fin N → Prop) [∀ e r, Decidable (D e r)]

/-- The neighbour sum of a node table: over the edges into `r`, the source row's entry. -/
def nbr {C : ℕ} (X : Fin N → Fin C → EReal) (r : Fin N) (k : Fin C) : EReal :=
  ∑ e : Fin E, if D e r then X (src e) k else 0

/-- The hidden layer: the rectified sum of the projected neighbour sum, the bias and the projected own row. -/
def hidden {d0 d1 : ℕ} (x : Fin N → Fin d0 → EReal) (wl wr : Fin d1 → Fin d0 → EReal) (b : Fin d1 → EReal)
    (r : Fin N) (j : Fin d1) : EReal :=
  max (((∑ k, nbr src D x r k * wl j k) + b j) + ∑ k, x r k * wr j k) 0

/-- The output layer with the left projection applied to the neighbour sum. -/
def outAfter {d1 d2 : ℕ} (h : Fin N → Fin d1 → EReal) (wl wr : Fin d2 → Fin d1 → EReal) (b : Fin d2 → EReal)
    (r : Fin N) (o : Fin d2) : EReal :=
  ((∑ j, nbr src D h r j * wl o j) + b o) + ∑ j, h r j * wr o j

/-- The output layer with the left projection applied row by row first, the projected rows then summed over the edges. -/
def outBefore {d1 d2 : ℕ} (h : Fin N → Fin d1 → EReal) (wl wr : Fin d2 → Fin d1 → EReal) (b : Fin d2 → EReal)
    (r : Fin N) (o : Fin d2) : EReal :=
  (nbr src D (fun r' o' => ∑ j, h r' j * wl o' j) r o + ∑ j, h r j * wr o j) + b o

end Cert.LibSageSum

end
-- ==== Proof.LibSageSumLaw.lean ====
/-
  The two output layers of the sum-aggregation convolution agree on real inputs, and the hidden layer of real inputs is real.

  On the extended reals a product with an infinity does not distribute over a sum, so the exchange
  `∑ j, (∑ e ∈ edges into r, h (src e) j) · w j = ∑ e ∈ edges into r, ∑ j, h (src e) j · w j` is proved for REAL entries: both
  sides are then coercions of the same real number (a sum of products, regrouped). The rest of the comparison of the two
  layers only reorders a sum of three extended reals, which needs nothing.
-/
import proofs.«136544_j72997264162856_2_alg».proof.Proof.LibSageSum

noncomputable section

open scoped BigOperators

namespace Cert.LibSageSum

/-- An extended real that is (the coercion of) a real number. -/
def IsReal (v : EReal) : Prop := ∃ y : ℝ, v = (y : EReal)

theorem IsReal.zero : IsReal 0 := ⟨0, EReal.coe_zero.symm⟩

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.max {a b : EReal} (ha : IsReal a) (hb : IsReal b) : IsReal (max a b) := by
  rcases max_choice a b with h | h <;> rw [h] <;> assumption

theorem IsReal.ite {P : Prop} [Decidable P] {a b : EReal} (ha : IsReal a) (hb : IsReal b) : IsReal (if P then a else b) := by
  split_ifs <;> assumption

theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_ite (P : Prop) [Decidable P] (x : ℝ) : ((if P then x else 0 : ℝ) : EReal) = if P then (x : EReal) else 0 := by
  split_ifs <;> simp

/-- Over the reals: a filtered sum of row projections is the projection of the filtered sum of rows. -/
theorem real_sum_proj {ι κ : Type*} [Fintype ι] [Fintype κ] (P : ι → Prop) [DecidablePred P] (a : ι → κ → ℝ) (w : κ → ℝ) :
    (∑ e, if P e then ∑ j, a e j * w j else 0) = ∑ j, (∑ e, if P e then a e j else 0) * w j := by
  simp only [Finset.sum_mul, ite_mul, zero_mul]
  rw [Finset.sum_comm]
  refine Finset.sum_congr rfl fun e _ => ?_
  split_ifs <;> simp

/-- The same on the extended reals, for real entries. -/
theorem sum_proj {ι κ : Type*} [Fintype ι] [Fintype κ] (P : ι → Prop) [DecidablePred P] (a : ι → κ → EReal) (w : κ → EReal)
    (ha : ∀ e j, IsReal (a e j)) (hw : ∀ j, IsReal (w j)) :
    (∑ e, if P e then ∑ j, a e j * w j else 0) = ∑ j, (∑ e, if P e then a e j else 0) * w j := by
  choose a' ha' using ha
  choose w' hw' using hw
  have hl : (∑ e, if P e then ∑ j, a e j * w j else 0) = ((∑ e, if P e then ∑ j, a' e j * w' j else 0 : ℝ) : EReal) := by
    rw [coe_sum]
    refine Finset.sum_congr rfl fun e _ => ?_
    rw [coe_ite, coe_sum]
    simp only [EReal.coe_mul, ha', hw']
  have hr : (∑ j, (∑ e, if P e then a e j else 0) * w j) = ((∑ j, (∑ e, if P e then a' e j else 0) * w' j : ℝ) : EReal) := by
    rw [coe_sum]
    refine Finset.sum_congr rfl fun j _ => ?_
    rw [EReal.coe_mul, coe_sum]
    simp only [coe_ite, ha', hw']
  rw [hl, hr, real_sum_proj]

variable {N E : ℕ} (src : Fin E → Fin N) (D : Fin E → Fin N → Prop) [∀ e r, Decidable (D e r)]

/-- The neighbour sum of a real table is real. -/
theorem nbr_real {C : ℕ} (X : Fin N → Fin C → EReal) (hX : ∀ r k, IsReal (X r k)) (r : Fin N) (k : Fin C) :
    IsReal (nbr src D X r k) :=
  IsReal.sum _ _ fun e _ => IsReal.ite (hX _ _) IsReal.zero

/-- THE HIDDEN LAYER OF REAL INPUTS IS REAL. -/
theorem hidden_real {d0 d1 : ℕ} (x : Fin N → Fin d0 → EReal) (wl wr : Fin d1 → Fin d0 → EReal) (b : Fin d1 → EReal)
    (hx : ∀ r k, IsReal (x r k)) (hwl : ∀ j k, IsReal (wl j k)) (hwr : ∀ j k, IsReal (wr j k)) (hb : ∀ j, IsReal (b j))
    (r : Fin N) (j : Fin d1) : IsReal (hidden src D x wl wr b r j) :=
  IsReal.max
    (((IsReal.sum _ _ fun k _ => (nbr_real src D x hx r k).mul (hwl j k)).add (hb j)).add
      (IsReal.sum _ _ fun k _ => (hx r k).mul (hwr j k)))
    IsReal.zero

/-- THE TWO OUTPUT LAYERS AGREE when the hidden features and the left weights are real: the neighbour sum of the projected
    rows is the projection of the neighbour sum, and the three summands are only reordered. -/
theorem outBefore_eq_outAfter {d1 d2 : ℕ} (h : Fin N → Fin d1 → EReal) (wl wr : Fin d2 → Fin d1 → EReal) (b : Fin d2 → EReal)
    (hh : ∀ r j, IsReal (h r j)) (hwl : ∀ o j, IsReal (wl o j)) (r : Fin N) (o : Fin d2) :
    outBefore src D h wl wr b r o = outAfter src D h wl wr b r o := by
  unfold outBefore outAfter
  have e : nbr src D (fun r' o' => ∑ j, h r' j * wl o' j) r o = ∑ j, nbr src D h r j * wl o j := by
    unfold nbr
    exact sum_proj (fun e => D e r) (fun e j => h (src e) j) (fun j => wl o j) (fun e j => hh _ _) (fun j => hwl o j)
  rw [e]
  exact add_right_comm _ _ _

end Cert.LibSageSum

end
-- ==== Proof.Sage.lean ====
/-
  A two-layer graph convolution with mean aggregation, on the extended reals, index by index, in two arrangements.

  Nodes are rows of a table; each edge `e` has a source row `src e` (its number read signed and clamped into the table)
  and is sent to the node whose number is its destination's. For a table `X : [N, C]` the neighbour sum `agg X` has, at
  `(r, k)`, the sum over the edges sent to `r` of `X (src e, k)`, and `cnt r = max (number of those edges, 1)`.

  First arrangement (rows SCALED by the reciprocal of the count, the second layer's left projection taken BEFORE the
  neighbour sum):
      h   = max ((agg x · (1 / cnt)) · Wl₁ + x · Wr₁ + b₁, 0)
      out = (agg (h · Wl₂) · (1 / cnt) + b₂) + h · Wr₂
  Second arrangement (rows DIVIDED by the count, the projection taken AFTER):
      h   = max (((agg x / cnt) · Wl₁ + b₁) + x · Wr₁, 0)
      out = ((agg h / cnt) · Wl₂ + b₂) + h · Wr₂
  The hidden layers agree on all extended reals: dividing by a nonzero `y` is multiplying by `1 / y`, and a sum of three
  terms may be regrouped. The output layers agree when `h` and `Wl₂` are REAL: then the mean of the projected rows is the
  projection of the mean row (a product distributes over a finite sum of real numbers; on the extended reals it need not).
  The hidden layer of real inputs is real, so the two networks agree on real inputs.
-/
import Idealize.ShloMosaic.PureOps.Ideal
import Idealize.ShloMosaic.PureOps.Ideal.Laws
import Idealize.ShloMosaic.Lib.ValueIdx
import proofs.«136544_j72997264162856_2_alg».proof.Proof.LibDense
import proofs.«136544_j72997264162856_2_alg».proof.Proof.LibRows
import proofs.«136544_j72997264162856_2_alg».proof.Proof.LibMeanProject
import proofs.«136544_j72997264162856_2_alg».proof.Proof.LibMeanConv
import proofs.«136544_j72997264162856_2_alg».proof.Proof.LibSageSumLaw

noncomputable section

namespace Cert.Sage

open Idealize.ShloMosaic Idealize.ShloMosaic.ValueIdx Cert.LibDense Cert.Lib.Rows
open Cert.LibSageSum (IsReal)

section
variable {N E : ℕ} (hN : 0 < N) (isrc idst : IVec ⟨2, ![E, 1]⟩ 32)

/-- The neighbour sum of a table: at `(r, k)`, over the edges sent to `r`, the table at the edge's source row, column `k`. -/
def agg {C : ℕ} (X : (⟨2, ![N, C]⟩ : Shape).Idx → EReal) : (⟨2, ![N, C]⟩ : Shape).Idx → EReal :=
  fun i => 0 + ∑ e ∈ edgesInto idst (i 0 : Fin N), X (ix2 (rowOf N hN (isrc (ix2 e (0 : Fin 1)))) (i 1 : Fin C))

/-- The divisor of a node's mean: the number of edges sent to it, or one when there is none. -/
def cnt (r : Fin N) : EReal := max (0 + ∑ _e ∈ edgesInto idst r, (1 : EReal)) 1

/-- The neighbour sum with each row scaled by the reciprocal of its divisor. -/
def scaled {C : ℕ} (X : (⟨2, ![N, C]⟩ : Shape).Idx → EReal) : (⟨2, ![N, C]⟩ : Shape).Idx → EReal :=
  fun j => agg hN isrc idst X j * Ideal.div 1 (cnt idst (j 0 : Fin N))

/-- The neighbour sum with each row divided by its divisor. -/
def meaned {C : ℕ} (X : (⟨2, ![N, C]⟩ : Shape).Idx → EReal) : (⟨2, ![N, C]⟩ : Shape).Idx → EReal :=
  fun j => Ideal.div (agg hN isrc idst X j) (cnt idst (j 0 : Fin N))

theorem scaled_eq_meaned {C : ℕ} (X : (⟨2, ![N, C]⟩ : Shape).Idx → EReal) :
    scaled hN isrc idst X = meaned hN isrc idst X :=
  funext fun _ => Cert.MeanConv.mul_recip _ _ (Cert.MeanConv.max_one_ne_zero _)

variable {K d : ℕ}

/-- Hidden layer, first arrangement. -/
def hidScaled (x : (⟨2, ![N, K]⟩ : Shape).Idx → EReal) (wl wr : (⟨2, ![K, d]⟩ : Shape).Idx → EReal)
    (b : (⟨1, ![d]⟩ : Shape).Idx → EReal) : (⟨2, ![N, d]⟩ : Shape).Idx → EReal :=
  relu (scaled hN isrc idst x) x wl wr b

/-- Hidden layer, second arrangement. -/
def hidMeaned (x : (⟨2, ![N, K]⟩ : Shape).Idx → EReal) (wl wr : (⟨2, ![K, d]⟩ : Shape).Idx → EReal)
    (b : (⟨1, ![d]⟩ : Shape).Idx → EReal) : (⟨2, ![N, d]⟩ : Shape).Idx → EReal :=
  fun i => max ((prod (meaned hN isrc idst x) wl i + b (ix1 (i 1))) + prod x wr i) (Ideal.ofBits .f32 0x00000000#32)

theorem hid_eq (x : (⟨2, ![N, K]⟩ : Shape).Idx → EReal) (wl wr : (⟨2, ![K, d]⟩ : Shape).Idx → EReal)
    (b : (⟨1, ![d]⟩ : Shape).Idx → EReal) :
    hidScaled hN isrc idst x wl wr b = hidMeaned hN isrc idst x wl wr b := by
  funext i
  unfold hidScaled hidMeaned relu affine
  rw [scaled_eq_meaned, add_right_comm]

/-- Output layer, first arrangement: project, then sum over the neighbours, then scale. -/
def outScaled (h : (⟨2, ![N, K]⟩ : Shape).Idx → EReal) (wl wr : (⟨2, ![K, d]⟩ : Shape).Idx → EReal)
    (b : (⟨1, ![d]⟩ : Shape).Idx → EReal) : (⟨2, ![N, d]⟩ : Shape).Idx → EReal :=
  fun i => (scaled hN isrc idst (prod h wl) i + b (ix1 (i 1))) + prod h wr i

/-- Output layer, second arrangement: sum over the neighbours, divide, then project. -/
def outMeaned (h : (⟨2, ![N, K]⟩ : Shape).Idx → EReal) (wl wr : (⟨2, ![K, d]⟩ : Shape).Idx → EReal)
    (b : (⟨1, ![d]⟩ : Shape).Idx → EReal) : (⟨2, ![N, d]⟩ : Shape).Idx → EReal :=
  fun i => (prod (meaned hN isrc idst h) wl i + b (ix1 (i 1))) + prod h wr i

/-- The mean of the projected rows is the projection of the mean row, for real rows and real weights. -/
theorem scaled_prod (h : (⟨2, ![N, K]⟩ : Shape).Idx → EReal) (wl : (⟨2, ![K, d]⟩ : Shape).Idx → EReal)
    (hh : ∀ j, IsReal (h j)) (hw : ∀ j, IsReal (wl j)) (i : (⟨2, ![N, d]⟩ : Shape).Idx) :
    scaled hN isrc idst (prod h wl) i = prod (meaned hN isrc idst h) wl i := by
  choose h' hh' using hh
  choose w' hw' using hw
  rw [scaled_eq_meaned]
  have key := Cert.Lib.MeanProject.mean_project (edgesInto idst (i 0 : Fin N))
    (fun e (k : Fin K) => h' (ix2 (rowOf N hN (isrc (ix2 e (0 : Fin 1)))) k)) (fun k => w' (ix2 k (i 1 : Fin d)))
  simp only [← hh', ← hw'] at key
  exact key

theorem out_eq (h : (⟨2, ![N, K]⟩ : Shape).Idx → EReal) (wl wr : (⟨2, ![K, d]⟩ : Shape).Idx → EReal)
    (b : (⟨1, ![d]⟩ : Shape).Idx → EReal) (hh : ∀ j, IsReal (h j)) (hw : ∀ j, IsReal (wl j)) :
    outScaled hN isrc idst h wl wr b = outMeaned hN isrc idst h wl wr b := by
  funext i
  unfold outScaled outMeaned
  rw [scaled_prod hN isrc idst h wl hh hw i]

/-! ## Real inputs give a real hidden layer -/

theorem isReal_one : IsReal 1 := ⟨1, EReal.coe_one.symm⟩

theorem recip_real (r : Fin N) : IsReal (Ideal.div 1 (cnt idst r)) := by
  unfold cnt
  rw [Cert.Lib.MeanProject.divisor_eq, Ideal.div_coe (Cert.Lib.MeanProject.divisor_ne_zero _)]
  exact isReal_one.mul ⟨_, rfl⟩

theorem agg_real {C : ℕ} (X : (⟨2, ![N, C]⟩ : Shape).Idx → EReal) (hX : ∀ j, IsReal (X j)) (i) :
    IsReal (agg hN isrc idst X i) :=
  IsReal.zero.add (IsReal.sum _ _ fun _ _ => hX _)

theorem prod_real {n : ℕ} (a : (⟨2, ![n, K]⟩ : Shape).Idx → EReal) (w : (⟨2, ![K, d]⟩ : Shape).Idx → EReal)
    (ha : ∀ j, IsReal (a j)) (hw : ∀ j, IsReal (w j)) (i) : IsReal (prod a w i) :=
  IsReal.sum _ _ fun _ _ => (ha _).mul (hw _)

theorem hid_real (x : (⟨2, ![N, K]⟩ : Shape).Idx → EReal) (wl wr : (⟨2, ![K, d]⟩ : Shape).Idx → EReal)
    (b : (⟨1, ![d]⟩ : Shape).Idx → EReal) (hx : ∀ j, IsReal (x j)) (hwl : ∀ j, IsReal (wl j)) (hwr : ∀ j, IsReal (wr j))
    (hb : ∀ j, IsReal (b j)) (i) : IsReal (hidScaled hN isrc idst x wl wr b i) := by
  unfold hidScaled relu affine
  refine IsReal.max (((prod_real _ _ (fun j => ?_) hwl i).add (prod_real _ _ hx hwr i)).add (hb _)) ?_
  · exact (agg_real hN isrc idst x hx j).mul (recip_real idst _)
  · rw [Ideal.ofBits_zero_f32]; exact IsReal.zero

end

/-! ## The two networks -/

section
variable {N E : ℕ} (hN : 0 < N) (isrc idst : IVec ⟨2, ![E, 1]⟩ 32) {K d o : ℕ}

/-- The network in the first arrangement. -/
def netScaled (x : (⟨2, ![N, K]⟩ : Shape).Idx → EReal) (wl1 wr1 : (⟨2, ![K, d]⟩ : Shape).Idx → EReal)
    (b1 : (⟨1, ![d]⟩ : Shape).Idx → EReal) (wl2 wr2 : (⟨2, ![d, o]⟩ : Shape).Idx → EReal)
    (b2 : (⟨1, ![o]⟩ : Shape).Idx → EReal) : (⟨2, ![N, o]⟩ : Shape).Idx → EReal :=
  outScaled hN isrc idst (hidScaled hN isrc idst x wl1 wr1 b1) wl2 wr2 b2

/-- The network in the second arrangement. -/
def netMeaned (x : (⟨2, ![N, K]⟩ : Shape).Idx → EReal) (wl1 wr1 : (⟨2, ![K, d]⟩ : Shape).Idx → EReal)
    (b1 : (⟨1, ![d]⟩ : Shape).Idx → EReal) (wl2 wr2 : (⟨2, ![d, o]⟩ : Shape).Idx → EReal)
    (b2 : (⟨1, ![o]⟩ : Shape).Idx → EReal) : (⟨2, ![N, o]⟩ : Shape).Idx → EReal :=
  outMeaned hN isrc idst (hidMeaned hN isrc idst x wl1 wr1 b1) wl2 wr2 b2

/-- On real features, first-layer weights and bias, and second-layer left weights, the two arrangements agree. -/
theorem net_eq (x : (⟨2, ![N, K]⟩ : Shape).Idx → EReal) (wl1 wr1 : (⟨2, ![K, d]⟩ : Shape).Idx → EReal)
    (b1 : (⟨1, ![d]⟩ : Shape).Idx → EReal) (wl2 wr2 : (⟨2, ![d, o]⟩ : Shape).Idx → EReal)
    (b2 : (⟨1, ![o]⟩ : Shape).Idx → EReal) (hx : ∀ j, IsReal (x j)) (hwl1 : ∀ j, IsReal (wl1 j))
    (hwr1 : ∀ j, IsReal (wr1 j)) (hb1 : ∀ j, IsReal (b1 j)) (hwl2 : ∀ j, IsReal (wl2 j)) :
    netScaled hN isrc idst x wl1 wr1 b1 wl2 wr2 b2 = netMeaned hN isrc idst x wl1 wr1 b1 wl2 wr2 b2 := by
  unfold netScaled netMeaned
  rw [out_eq hN isrc idst _ wl2 wr2 b2 (hid_real hN isrc idst x wl1 wr1 b1 hx hwl1 hwr1 hb1) hwl2, hid_eq]

end

/-! ## The host's spelling of a neighbour sum and of the count -/

section
variable {N E : ℕ} (hN : 0 < N) (isrc idst : IVec ⟨2, ![E, 1]⟩ 32)

/-- Rows gathered at the source numbers and accumulated into a table of zeros at the destination numbers. -/
theorem scatter_gather {C : ℕ}
    (wfg : GatherDims.WF ⟨2, ![N, C]⟩ ⟨2, ![E, 1]⟩ ⟨2, ![E, C]⟩ [1] [0] [] [0] [] 1 ![1, C])
    (wfs : ScatterDims.WF ⟨2, ![N, C]⟩ ⟨2, ![E, 1]⟩ ⟨2, ![E, C]⟩ [1] [0] [0] 1)
    (z : (⟨2, ![N, C]⟩ : Shape).Idx → EReal) (hz : ∀ j, z j = 0) (X : (⟨2, ![N, C]⟩ : Shape).Idx → EReal) :
    Ideal.hostScatterAdd (scatterRowsDims N E C wfs) z idst (Host.gather (gatherRowsDims N E C wfg) X isrc)
      = agg hN isrc idst X := by
  funext i
  obtain ⟨r, k, rfl⟩ : ∃ (r : Fin N) (k : Fin C), i = ix2 r k := ⟨i 0, i 1, eq_ix2 i⟩
  rw [scatterAddRows_apply, hz]
  unfold agg
  refine congrArg (fun s => (0 : EReal) + s) (Finset.sum_congr rfl fun e _ => ?_)
  exact gatherRows_apply hN wfg X isrc e k

/-- Ones accumulated into zeros at the destination numbers, floored at one: the divisor. -/
theorem scatter_ones (wfs : ScatterDims.WF ⟨1, ![N]⟩ ⟨2, ![E, 1]⟩ ⟨1, ![E]⟩ [] [0] [0] 1)
    (z : (⟨1, ![N]⟩ : Shape).Idx → EReal) (hz : ∀ j, z j = 0) (u : (⟨1, ![E]⟩ : Shape).Idx → EReal) (hu : ∀ j, u j = 1)
    (r : Fin N) :
    max (Ideal.hostScatterAdd (scatterEltsDims N E wfs) z idst u (ix1 r)) 1 = cnt idst r := by
  rw [scatterAddElts_apply, hz]
  unfold cnt
  exact congrArg (fun s => max ((0 : EReal) + s) 1) (Finset.sum_congr rfl fun e _ => hu _)

end

end Cert.Sage

end
-- ==== Proof.HostLib.lean ====
/-
  The host's spelling of a neighbour sum and of the reciprocal column, read as sums, and the two index columns.

  A neighbour sum is rows gathered at the source column and accumulated into a table of zeros at the destination column;
  the reciprocal column is one over a column of ones accumulated into zeros at the destination column and floored at one.
  The two index columns are compositions of slices, a comparison with zero, an addition of the row count and a selection,
  of the edge argument.
-/
import proofs.«136544_j72997264162856_2_alg».proof.Proof.Gen.KernelIdeal.Frame
import proofs.«136544_j72997264162856_2_alg».proof.Proof.Gen.ReferenceIdeal.Read
import proofs.«136544_j72997264162856_2_alg».proof.Proof.Sage
import proofs.«136544_j72997264162856_2_alg».proof.Proof.LibMeanConv
import Idealize.ShloMosaic.Lib.StableHlo.Run
import Idealize.ShloMosaic.Lib.Pipeline.Value
import Idealize.ShloMosaic.Lib.ValueIdx

set_option maxRecDepth 16384

noncomputable section

namespace Cert.KernelIdeal.Host

open Idealize.ShloMosaic Idealize.ShloMosaic.TcCoe Idealize.SL.Sem Idealize.ShloMosaic.ValueIdx Idealize.ShloMosaic.StableHlo
open Cert.KernelIdeal Cert.KernelIdeal.Gen Cert.Lib.Rows

theorem hN : 0 < 100000 := by decide

/-! ## Constant tables, and the host's spelling of a neighbour sum and of the reciprocal column -/

theorem zeros_apply {s : Shape} (h : S_.BroadcastsInDim s (![] : Fin 0 → Fin s.rank)) (j : s.Idx) :
    broadcastInDim s ![] h (constant (F := Ideal) S_ .f32 0x00000000#32) j = 0 := by
  rw [broadcastInDim_apply ![] h _ j ix0 (fun a => a.elim0), constant_apply, Ideal.ofBits_zero_f32]

theorem ones_apply {s : Shape} (h : S_.BroadcastsInDim s (![] : Fin 0 → Fin s.rank)) (j : s.Idx) :
    broadcastInDim s ![] h (constant (F := Ideal) S_ .f32 0x3F800000#32) j = 1 := by
  rw [broadcastInDim_apply ![] h _ j ix0 (fun a => a.elim0), constant_apply, Cert.MeanConv.word_one]

theorem rec_scatter64 : scatter_S100000x64_S1200000x1_S1200000x64_1_0_0_1
    = scatterRowsDims 100000 1200000 64 scatter_S100000x64_S1200000x1_S1200000x64_1_0_0_1.wf := rfl
theorem rec_gather64 : gather_S100000x64_S1200000x1_S1200000x64_1_0_n_n_0_1_164
    = gatherRowsDims 100000 1200000 64 gather_S100000x64_S1200000x1_S1200000x64_1_0_n_n_0_1_164.wf := rfl
theorem rec_scatter32 : scatter_S100000x32_S1200000x1_S1200000x32_1_0_0_1
    = scatterRowsDims 100000 1200000 32 scatter_S100000x32_S1200000x1_S1200000x32_1_0_0_1.wf := rfl
theorem rec_gather32 : gather_S100000x32_S1200000x1_S1200000x32_1_0_n_n_0_1_132
    = gatherRowsDims 100000 1200000 32 gather_S100000x32_S1200000x1_S1200000x32_1_0_n_n_0_1_132.wf := rfl
theorem rec_scatter1 : scatter_S100000_S1200000x1_S1200000_n_0_0_1
    = scatterEltsDims 100000 1200000 scatter_S100000_S1200000x1_S1200000_n_0_0_1.wf := rfl

/-- Rows of a 64-wide table gathered at the source column and accumulated into zeros at the destination column. -/
theorem agg64 (isrc idst : IVec S1200000x1 32) (X : S100000x64.Idx → EReal)
    (hb : S_.BroadcastsInDim S100000x64 (![] : Fin 0 → Fin S100000x64.rank)) :
    Host.scatterAdd scatter_S100000x64_S1200000x1_S1200000x64_1_0_0_1
        (broadcastInDim S100000x64 ![] hb (constant (F := Ideal) S_ .f32 0x00000000#32)) idst
        (Host.gather gather_S100000x64_S1200000x1_S1200000x64_1_0_n_n_0_1_164 X isrc)
      = Cert.Sage.agg hN isrc idst X := by
  rw [Host.scatterAdd, Ideal.hostScatterAdd_def, rec_scatter64, rec_gather64]
  exact Cert.Sage.scatter_gather hN isrc idst _ _ _ (fun j => zeros_apply hb j) X

/-- The same for a 32-wide table. -/
theorem agg32 (isrc idst : IVec S1200000x1 32) (X : S100000x32.Idx → EReal)
    (hb : S_.BroadcastsInDim S100000x32 (![] : Fin 0 → Fin S100000x32.rank)) :
    Host.scatterAdd scatter_S100000x32_S1200000x1_S1200000x32_1_0_0_1
        (broadcastInDim S100000x32 ![] hb (constant (F := Ideal) S_ .f32 0x00000000#32)) idst
        (Host.gather gather_S100000x32_S1200000x1_S1200000x32_1_0_n_n_0_1_132 X isrc)
      = Cert.Sage.agg hN isrc idst X := by
  rw [Host.scatterAdd, Ideal.hostScatterAdd_def, rec_scatter32, rec_gather32]
  exact Cert.Sage.scatter_gather hN isrc idst _ _ _ (fun j => zeros_apply hb j) X

theorem hostDivf_apply {s : Shape} {φ : FTy} (a b : FVec Ideal s φ) (i : s.Idx) : Host.divf a b i = Ideal.div (a i) (b i) := rfl

/-- Ones accumulated into zeros at the destination column, floored at one: the divisor of row `r`. -/
theorem count_apply (idst : IVec S1200000x1 32) (h1 : S_.BroadcastsInDim S100000 (![] : Fin 0 → Fin S100000.rank))
    (h2 : S_.BroadcastsInDim S1200000 (![] : Fin 0 → Fin S1200000.rank)) (r : Fin 100000) :
    max (Host.scatterAdd scatter_S100000_S1200000x1_S1200000_n_0_0_1
        (broadcastInDim S100000 ![] h1 (constant (F := Ideal) S_ .f32 0x00000000#32)) idst
        (broadcastInDim S1200000 ![] h2 (constant (F := Ideal) S_ .f32 0x3F800000#32)) (ix1 r)) 1
      = Cert.Sage.cnt idst r := by
  rw [Host.scatterAdd, Ideal.hostScatterAdd_def, rec_scatter1]
  exact Cert.Sage.scatter_ones idst _ _ (fun j => zeros_apply h1 j) _ (fun j => ones_apply h2 j) r

/-- One over the count floored at one, as a column, at row `r`. -/
theorem recip_col (idst : IVec S1200000x1 32) (h1 : S_.BroadcastsInDim S100000 (![] : Fin 0 → Fin S100000.rank))
    (h2 : S_.BroadcastsInDim S1200000 (![] : Fin 0 → Fin S1200000.rank))
    (h3 : S100000.BroadcastsInDim S100000x1 (![0] : Fin 1 → Fin S100000x1.rank)) (r : Fin 100000) :
    broadcastInDim S100000x1 ![0] h3
        (Host.divf (broadcastInDim S100000 ![] h1 (constant (F := Ideal) S_ .f32 0x3F800000#32))
          (maximumf (Host.scatterAdd scatter_S100000_S1200000x1_S1200000_n_0_0_1
              (broadcastInDim S100000 ![] h1 (constant (F := Ideal) S_ .f32 0x00000000#32)) idst
              (broadcastInDim S1200000 ![] h2 (constant (F := Ideal) S_ .f32 0x3F800000#32)))
            (broadcastInDim S100000 ![] h1 (constant (F := Ideal) S_ .f32 0x3F800000#32))))
        (ix2 r (0 : Fin 1))
      = Ideal.div 1 (Cert.Sage.cnt idst r) := by
  rw [broadcastInDim_apply ![0] h3 _ (ix2 r (0 : Fin 1)) (ix1 r) (fun a => by
    match a with
    | ⟨0, _⟩ => exact (if_neg (show ¬ ((100000 : ℕ) = 1) by decide)).symm)]
  rw [hostDivf_apply, maximumf_apply, ones_apply h1, count_apply idst h1 h2 r]

/-! ## The two index columns -/

section
variable (m : (ℓ : Loc nD τ sig) → Buf (Elt Ideal) ℓ) (c : Dev nD)

/-- The source column: the edges' source numbers, a negative one moved up by the row count, as an `[E, 1]` column. -/
abbrev srcCol : IVec S1200000x1 32 :=
  Cert.ReferenceIdeal.Read.val_main_v9 (F := Ideal) (m ((c : Thread nD τ).loc main_arg1))

/-- The destination column: the edges' destination numbers as an `[E, 1]` column. -/
abbrev dstCol : IVec S1200000x1 32 :=
  Cert.ReferenceIdeal.Read.val_main_v12 (F := Ideal) (m ((c : Thread nD τ).loc main_arg1))

end

end Cert.KernelIdeal.Host

end
-- ==== Proof.HostA.lean ====
/-
  What the host operations before the first region leave in the buffers it reads: the neighbour sum of the features, the
  column of reciprocals `1 / max (count, 1)`, and the arguments untouched.
-/
import proofs.«136544_j72997264162856_2_alg».proof.Proof.HostLib

set_option maxRecDepth 16384

noncomputable section

namespace Cert.KernelIdeal.Host

open Idealize.ShloMosaic Idealize.ShloMosaic.TcCoe Idealize.SL.Sem Idealize.ShloMosaic.ValueIdx Idealize.ShloMosaic.StableHlo
open Cert.KernelIdeal Cert.KernelIdeal.Gen Cert.Lib.Rows

variable (m : (ℓ : Loc nD τ sig) → Buf (Elt Ideal) ℓ) (ρ : Dev nD → PrngReg) (c : Dev nD)

/-! ## The columns as the first stretch leaves them -/

theorem src_column : (W1 m ρ c (Proc.devRef .tc main_v18) : IVec S1200000x1 32) = srcCol m c := by
  show (StableHlo.after (hostOps0 (F := Ideal)) (W0 m ρ c) (Proc.devRef .tc main_v18) : IVec S1200000x1 32) = _
  after_results_simp
  rfl

theorem dst_column : (W1 m ρ c (Proc.devRef .tc main_v21) : IVec S1200000x1 32) = dstCol m c := by
  show (StableHlo.after (hostOps0 (F := Ideal)) (W0 m ρ c) (Proc.devRef .tc main_v21) : IVec S1200000x1 32) = _
  after_results_simp
  rfl

theorem dst_column' : (W1 m ρ c (Proc.devRef .tc main_v6) : IVec S1200000x1 32) = dstCol m c := by
  show (StableHlo.after (hostOps0 (F := Ideal)) (W0 m ρ c) (Proc.devRef .tc main_v6) : IVec S1200000x1 32) = _
  after_results_simp
  rfl

/-! ## The arguments are untouched -/

theorem arg0_eq : W1 m ρ c (Proc.devRef .tc main_arg0) = m ((c : Thread nD τ).loc main_arg0) := by
  show StableHlo.after (hostOps0 (F := Ideal)) (W0 m ρ c) (Proc.devRef .tc main_arg0) = _
  after_results_simp

theorem arg2_eq : W1 m ρ c (Proc.devRef .tc main_arg2) = m ((c : Thread nD τ).loc main_arg2) := by
  show StableHlo.after (hostOps0 (F := Ideal)) (W0 m ρ c) (Proc.devRef .tc main_arg2) = _
  after_results_simp

theorem arg3_eq : W1 m ρ c (Proc.devRef .tc main_arg3) = m ((c : Thread nD τ).loc main_arg3) := by
  show StableHlo.after (hostOps0 (F := Ideal)) (W0 m ρ c) (Proc.devRef .tc main_arg3) = _
  after_results_simp

theorem arg4_eq : W1 m ρ c (Proc.devRef .tc main_arg4) = m ((c : Thread nD τ).loc main_arg4) := by
  show StableHlo.after (hostOps0 (F := Ideal)) (W0 m ρ c) (Proc.devRef .tc main_arg4) = _
  after_results_simp

theorem arg5_eq : W1 m ρ c (Proc.devRef .tc main_arg5) = m ((c : Thread nD τ).loc main_arg5) := by
  show StableHlo.after (hostOps0 (F := Ideal)) (W0 m ρ c) (Proc.devRef .tc main_arg5) = _
  after_results_simp

/-! ## The neighbour sum and the reciprocal column -/

theorem v22_rel : (W1 m ρ c (Proc.devRef .tc main_v22) : S100000x64.Idx → EReal)
    = Cert.Sage.agg hN (W1 m ρ c (Proc.devRef .tc main_v18)) (W1 m ρ c (Proc.devRef .tc main_v21))
        (W1 m ρ c (Proc.devRef .tc main_arg0)) := by
  show (StableHlo.after (hostOps0 (F := Ideal)) (W0 m ρ c) (Proc.devRef .tc main_v22) : S100000x64.Idx → EReal)
    = Cert.Sage.agg hN (StableHlo.after (hostOps0 (F := Ideal)) (W0 m ρ c) (Proc.devRef .tc main_v18)) (StableHlo.after (hostOps0 (F := Ideal)) (W0 m ρ c) (Proc.devRef .tc main_v21)) (StableHlo.after (hostOps0 (F := Ideal)) (W0 m ρ c) (Proc.devRef .tc main_arg0))
  after_results_simp
  exact agg64 _ _ _ _

theorem v22_eq : (W1 m ρ c (Proc.devRef .tc main_v22) : S100000x64.Idx → EReal)
    = Cert.Sage.agg hN (srcCol m c) (dstCol m c) (m ((c : Thread nD τ).loc main_arg0)) := by
  rw [v22_rel, src_column, dst_column, arg0_eq]

theorem v12_rel (r : Fin 100000) : (W1 m ρ c (Proc.devRef .tc main_v12) : S100000x1.Idx → EReal) (ix2 r (0 : Fin 1))
    = Ideal.div 1 (Cert.Sage.cnt (W1 m ρ c (Proc.devRef .tc main_v6)) r) := by
  show (StableHlo.after (hostOps0 (F := Ideal)) (W0 m ρ c) (Proc.devRef .tc main_v12) : S100000x1.Idx → EReal) (ix2 r (0 : Fin 1))
    = Ideal.div 1 (Cert.Sage.cnt (StableHlo.after (hostOps0 (F := Ideal)) (W0 m ρ c) (Proc.devRef .tc main_v6)) r)
  after_results_simp
  exact recip_col _ _ _ _ r

theorem v12_eq (r : Fin 100000) : (W1 m ρ c (Proc.devRef .tc main_v12) : S100000x1.Idx → EReal) (ix2 r (0 : Fin 1))
    = Ideal.div 1 (Cert.Sage.cnt (dstCol m c) r) := by
  rw [v12_rel, dst_column']

end Cert.KernelIdeal.Host

end
-- ==== Proof.HostB.lean ====
/-
  What the host operations between the two regions leave in the buffers the second region reads: the neighbour sum of the
  first region's projected output, the hidden array and the reciprocals as the first region left or found them, and the
  arguments untouched. The index columns are recomputed from the edge argument exactly as before the first region.
-/
import proofs.«136544_j72997264162856_2_alg».proof.Proof.HostLib

set_option maxRecDepth 16384

noncomputable section

namespace Cert.KernelIdeal.Host

open Idealize.ShloMosaic Idealize.ShloMosaic.TcCoe Idealize.SL.Sem Idealize.ShloMosaic.ValueIdx Idealize.ShloMosaic.StableHlo
open Cert.KernelIdeal Cert.KernelIdeal.Gen Cert.Lib.Rows

variable (m : (ℓ : Loc nD τ sig) → Buf (Elt Ideal) ℓ) (ρ : Dev nD → PrngReg) (c : Dev nD)

/-! ## The edge numbers survive the first region -/

theorem src_keep : W2 m ρ c (Proc.devRef .tc main_v1)
    = Cert.ReferenceIdeal.Read.val_main_v1 (F := Ideal) (m ((c : Thread nD τ).loc main_arg1)) := by
  rw [W2_of_ne m ρ c main_v1 (by decide)]
  show StableHlo.after (hostOps0 (F := Ideal)) (W0 m ρ c) (Proc.devRef .tc main_v1) = _
  after_results_simp
  rfl

theorem dst_keep : W2 m ρ c (Proc.devRef .tc main_v3)
    = Cert.ReferenceIdeal.Read.val_main_v3 (F := Ideal) (m ((c : Thread nD τ).loc main_arg1)) := by
  rw [W2_of_ne m ρ c main_v3 (by decide)]
  show StableHlo.after (hostOps0 (F := Ideal)) (W0 m ρ c) (Proc.devRef .tc main_v3) = _
  after_results_simp
  rfl

/-! ## The columns as the second stretch leaves them -/

theorem src_column2 : (W3 m ρ c (Proc.devRef .tc main_v29) : IVec S1200000x1 32) = srcCol m c := by
  show (StableHlo.after (hostOps1 (F := Ideal)) (W2 m ρ c) (Proc.devRef .tc main_v29) : IVec S1200000x1 32) = _
  after_results_simp
  rw [src_keep]
  rfl

theorem dst_column2 : (W3 m ρ c (Proc.devRef .tc main_v32) : IVec S1200000x1 32) = dstCol m c := by
  show (StableHlo.after (hostOps1 (F := Ideal)) (W2 m ρ c) (Proc.devRef .tc main_v32) : IVec S1200000x1 32) = _
  after_results_simp
  rw [dst_keep]
  rfl

/-! ## What the second region finds -/

theorem proj_keep : W3 m ρ c (Proc.devRef .tc main_v23_1) = W2 m ρ c (Proc.devRef .tc main_v23_1) := by
  show StableHlo.after (hostOps1 (F := Ideal)) (W2 m ρ c) (Proc.devRef .tc main_v23_1) = _
  after_results_simp

theorem hid_keep : W3 m ρ c (Proc.devRef .tc main_v23_0) = W2 m ρ c (Proc.devRef .tc main_v23_0) := by
  show StableHlo.after (hostOps1 (F := Ideal)) (W2 m ρ c) (Proc.devRef .tc main_v23_0) = _
  after_results_simp

theorem recip_keep : W3 m ρ c (Proc.devRef .tc main_v12) = W1 m ρ c (Proc.devRef .tc main_v12) := by
  have h : W3 m ρ c (Proc.devRef .tc main_v12) = W2 m ρ c (Proc.devRef .tc main_v12) := by
    show StableHlo.after (hostOps1 (F := Ideal)) (W2 m ρ c) (Proc.devRef .tc main_v12) = _
    after_results_simp
  exact h.trans ((W2_arr m ρ c 2).trans (((dat0 (V1 m ρ) c).arrAt_in 2 rfl _).trans (A_eq0 (V1 m ρ) c 2)))

theorem v33_rel : (W3 m ρ c (Proc.devRef .tc main_v33) : S100000x32.Idx → EReal)
    = Cert.Sage.agg hN (W3 m ρ c (Proc.devRef .tc main_v29)) (W3 m ρ c (Proc.devRef .tc main_v32))
        (W3 m ρ c (Proc.devRef .tc main_v23_1)) := by
  show (StableHlo.after (hostOps1 (F := Ideal)) (W2 m ρ c) (Proc.devRef .tc main_v33) : S100000x32.Idx → EReal)
    = Cert.Sage.agg hN (StableHlo.after (hostOps1 (F := Ideal)) (W2 m ρ c) (Proc.devRef .tc main_v29)) (StableHlo.after (hostOps1 (F := Ideal)) (W2 m ρ c) (Proc.devRef .tc main_v32)) (StableHlo.after (hostOps1 (F := Ideal)) (W2 m ρ c) (Proc.devRef .tc main_v23_1))
  after_results_simp
  exact agg32 _ _ _ _

theorem v33_eq : (W3 m ρ c (Proc.devRef .tc main_v33) : S100000x32.Idx → EReal)
    = Cert.Sage.agg hN (srcCol m c) (dstCol m c) (W2 m ρ c (Proc.devRef .tc main_v23_1)) := by
  rw [v33_rel, src_column2, dst_column2, proj_keep]

theorem arg6_eq : W3 m ρ c (Proc.devRef .tc main_arg6) = m ((c : Thread nD τ).loc main_arg6) := by
  show StableHlo.after (hostOps1 (F := Ideal)) (W2 m ρ c) (Proc.devRef .tc main_arg6) = _
  after_results_simp
  rw [W2_of_ne m ρ c main_arg6 (by decide)]
  show StableHlo.after (hostOps0 (F := Ideal)) (W0 m ρ c) (Proc.devRef .tc main_arg6) = _
  after_results_simp

theorem arg7_eq : W3 m ρ c (Proc.devRef .tc main_arg7) = m ((c : Thread nD τ).loc main_arg7) := by
  show StableHlo.after (hostOps1 (F := Ideal)) (W2 m ρ c) (Proc.devRef .tc main_arg7) = _
  after_results_simp
  rw [W2_of_ne m ρ c main_arg7 (by decide)]
  show StableHlo.after (hostOps0 (F := Ideal)) (W0 m ρ c) (Proc.devRef .tc main_arg7) = _
  after_results_simp

end Cert.KernelIdeal.Host

end
-- ==== Proof.Reg0.lean ====
/-
  What the first region leaves in its two output arrays, as functions of the arrays it finds.

  The region walks 25 blocks of 4000 rows. At a block it scales each row of the neighbour sum by that row's scale,
  multiplies by the left weights, adds the block of features times the right weights, adds the bias row and clamps at
  zero: the block of hidden features. It also multiplies that block by the second layer's left weights. Row `p` of
  block `t` is row `4000 t + p` of every row-blocked array, the weights and the bias are read whole, and the blocks
  tile the 100000 rows, so the two arrays end at
      h (r, j) = max ((∑ k, (s (r, k) · scale r) · wl (k, j) + ∑ k, x (r, k) · wr (k, j)) + b j, 0)
      p (r, o) = ∑ k, h (r, k) · w₂ (k, o).
-/
import proofs.«136544_j72997264162856_2_alg».proof.Proof.Gen.KernelIdeal.Frame
import proofs.«136544_j72997264162856_2_alg».proof.Proof.LibDense
import proofs.«136544_j72997264162856_2_alg».proof.Proof.LibMeanConv
import Idealize.ShloMosaic.Lib.ValueIdx
import Idealize.ShloMosaic.Lib.Pipeline.Value
import Idealize.ShloMosaic.PureOps.Ideal.Laws

set_option maxRecDepth 16384

noncomputable section

namespace Cert.KernelIdeal.Reg0

open Idealize.ShloMosaic Idealize.ShloMosaic.TcCoe Idealize.SL.Sem Idealize.ShloMosaic.ValueIdx
open Idealize.ShloMosaic.Pipeline (Dat)
open Cert.KernelIdeal Cert.KernelIdeal.Gen Cert.LibDense

/-- The hidden features: a scaled neighbour sum through the left weights, the features through the right weights, the
    bias, clamped at zero. -/
def Gh (s : S100000x64.Idx → EReal) (x : S100000x64.Idx → EReal) (dinv : S100000x1.Idx → EReal)
    (wl wr : S64x64.Idx → EReal) (b : S64.Idx → EReal) : S100000x64.Idx → EReal :=
  relu (fun y => s y * dinv (ix2 (y 0) (0 : Fin 1))) x wl wr b

/-- The hidden features through the second layer's left weights. -/
def Gp (s : S100000x64.Idx → EReal) (x : S100000x64.Idx → EReal) (dinv : S100000x1.Idx → EReal)
    (wl wr : S64x64.Idx → EReal) (b : S64.Idx → EReal) (w2 : S64x32.Idx → EReal) : S100000x32.Idx → EReal :=
  prod (Gh s x dinv wl wr b) w2

theorem hz : (![0, 0] : Fin 2 → Nat) = fun _ => 0 := funext fun a => by fin_cases a <;> rfl
theorem hz1 : (![0] : Fin 1 → Nat) = fun _ => 0 := funext fun a => by fin_cases a <;> rfl

/-! ## The body's values at an entry of a block -/

theorem scaled_rows (v0 : Vec Ideal S4000x1 .f32) (v2 : Vec Ideal S4000x64 .f32) (h1 : S4000x64.ShapeCasts S4000x64)
    (h2 : S4000x1.ShapeCasts S4000x1) (h3 : S4000x1.Broadcasts S4000x64) :
    (mulf (shapeCast S4000x64 v2 h1) (broadcastTo S4000x64 (shapeCast S4000x1 v0 h2) h3) : FVec Ideal S4000x64 .f32)
      = fun y => v2 y * v0 (ix2 (y 0) (0 : Fin 1)) := by
  funext y
  obtain ⟨p, k, rfl⟩ : ∃ (p : Fin 4000) (k : Fin 64), y = ix2 p k := ⟨y 0, y 1, eq_ix2 y⟩
  rw [mulf_apply, shapeCast_self, shapeCast_self]
  exact congrArg (fun s => v2 (ix2 p k) * s) (Cert.MeanConv.broadcast_column v0 h3 p k)

theorem left_apply (d : DotDims S4000x64 S64x64 S4000x64) (hd : d = DotDims.plain 4000 64 64)
    (v0 : Vec Ideal S4000x1 .f32) (v2 : Vec Ideal S4000x64 .f32) (v9 : Vec Ideal S64x64 .f32)
    (h1 : S4000x64.ShapeCasts S4000x64) (h2 : S4000x1.ShapeCasts S4000x1) (h3 : S4000x1.Broadcasts S4000x64)
    (hb : FTy.bf16.bits < FTy.f32.bits) (p : Fin 4000) (j : Fin 64) :
    matmul d none (truncf .bf16 (mulf (shapeCast S4000x64 v2 h1) (broadcastTo S4000x64 (shapeCast S4000x1 v0 h2) h3)) hb)
        (truncf .bf16 v9 hb) (constant (F := Ideal) S4000x64 .f32 0x00000000#32) (ix2 p j)
      = prod (fun y => v2 y * v0 (ix2 (y 0) (0 : Fin 1))) v9 (ix2 p j) := by
  subst hd
  rw [scaled_rows]
  exact matmul_plain (M := 4000) (K := 64) (N := 64) _ _ _

theorem right_apply (d : DotDims S4000x64 S64x64 S4000x64) (hd : d = DotDims.plain 4000 64 64)
    (v7 : Vec Ideal S4000x64 .f32) (v11 : Vec Ideal S64x64 .f32) (hb : FTy.bf16.bits < FTy.f32.bits) (p : Fin 4000) (j : Fin 64) :
    matmul d none (truncf .bf16 v7 hb) (truncf .bf16 v11 hb) (constant (F := Ideal) S4000x64 .f32 0x00000000#32) (ix2 p j)
      = prod v7 v11 (ix2 p j) := by
  subst hd
  exact matmul_plain (M := 4000) (K := 64) (N := 64) _ _ _

theorem hid_apply (v0 : Vec Ideal S4000x1 .f32) (v2 v7 : Vec Ideal S4000x64 .f32) (v9 v11 : Vec Ideal S64x64 .f32)
    (v16 : Vec Ideal S64 .f32) (p : Fin 4000) (j : Fin 64) :
    k0_pay1 (F := Ideal) v0 v2 v7 v9 v11 v16 (ix2 p j)
      = relu (fun y => v2 y * v0 (ix2 (y 0) (0 : Fin 1))) v7 v9 v11 v16 (ix2 p j) :=
  congrArg₂ max (congrArg₂ (· + ·) (congrArg₂ (· + ·) (left_apply _ rfl v0 v2 v9 _ _ _ _ p j) (right_apply _ rfl v7 v11 _ p j))
    (bias_row v16 _ _ (ix2 p j))) rfl

theorem proj_apply (d : DotDims S4000x64 S64x32 S4000x32) (hd : d = DotDims.plain 4000 64 32)
    (u : Vec Ideal S4000x64 .f32) (v24 : Vec Ideal S64x32 .f32) (hb : FTy.bf16.bits < FTy.f32.bits) (p : Fin 4000) (o : Fin 32) :
    matmul d none (truncf .bf16 u hb) (truncf .bf16 v24 hb) (constant (F := Ideal) S4000x32 .f32 0x00000000#32) (ix2 p o)
      = prod u v24 (ix2 p o) := by
  subst hd
  exact matmul_plain (M := 4000) (K := 64) (N := 32) _ _ _

theorem out7_apply (x0 x1 : Vec Ideal S4000x64 .f32) (x2 : Vec Ideal S4000x1 .f32) (x3 x4 : Vec Ideal S64x64 .f32)
    (x5 : Vec Ideal S64 .f32) (x6 : Vec Ideal S64x32 .f32) (p : Fin 4000) (j : Fin 64) :
    out0_7 x0 x1 x2 x3 x4 x5 x6 (ix2 p j) = relu (fun y => x0 y * x2 (ix2 (y 0) (0 : Fin 1))) x1 x3 x4 x5 (ix2 p j) := by
  unfold out0_7
  rw [View.canon_unit_zero hz]
  simp only [View.ld_unit_zero (S := S4000x1) hz, View.ld_unit_zero (S := S4000x64) hz, View.ld_unit_zero (S := S64x64) hz,
    View.ld_unit_zero (S := S64) hz1]
  exact hid_apply x2 x0 x1 x3 x4 x5 p j

theorem out8_apply (x0 x1 : Vec Ideal S4000x64 .f32) (x2 : Vec Ideal S4000x1 .f32) (x3 x4 : Vec Ideal S64x64 .f32)
    (x5 : Vec Ideal S64 .f32) (x6 : Vec Ideal S64x32 .f32) (p : Fin 4000) (o : Fin 32) :
    out0_8 x0 x1 x2 x3 x4 x5 x6 (ix2 p o)
      = ∑ k : Fin 64, relu (fun y => x0 y * x2 (ix2 (y 0) (0 : Fin 1))) x1 x3 x4 x5 (ix2 p k) * x6 (ix2 k o) := by
  unfold out0_8
  rw [View.canon_unit_zero hz]
  simp only [View.ld_unit_zero (S := S4000x1) hz, View.ld_unit_zero (S := S4000x64) hz, View.ld_unit_zero (S := S64x64) hz,
    View.ld_unit_zero (S := S64) hz1, View.ld_unit_zero (S := S64x32) hz]
  refine (proj_apply _ rfl (k0_pay1 (F := Ideal) x2 x0 x1 x3 x4 x5) x6 _ p o).trans ?_
  exact Finset.sum_congr rfl fun k _ => congrArg (fun s => s * x6 (ix2 k o)) (hid_apply x2 x0 x1 x3 x4 x5 p k)

/-! ## From blocks to the arrays -/

section
variable (V : (c : Dev nD) → (b : Ref sig .tc) → Buf (Elt Ideal) ((c : Thread nD τ).loc b))

/-- The printed index maps over the grid: the three row-blocked inputs and the two outputs move one block per point,
    the weights and the bias stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- Row `p` of block `t`. -/
def row (t : Fin cfg0.N) (p : Fin 4000) : Fin 100000 :=
  ⟨t.val * 4000 + p.val, by have h1 : t.val < 25 := t.isLt; have h2 := p.isLt; omega⟩

theorem blk0 (c : Dev nD) (t : Fin cfg0.N) (p : Fin 4000) (k : Fin 64) :
    iblk0 V c 0 t (ix2 p k) = V c main_v22 (ix2 (row t p) k) := by
  obtain ⟨e0, e1, -⟩ := idx_facts t
  show V c main_v22 (((cfg0.win 0).blk t).view.emb (ix2 p k)) = V c main_v22 (ix2 (row t p) k)
  refine congrArg (V c main_v22) (funext fun a => Fin.ext ?_)
  match a with
  | ⟨0, _⟩ => show win0_0.index t (0 : Fin 2) * 4000 + 1 * p.val = t.val * 4000 + p.val; omega
  | ⟨1, _⟩ => show win0_0.index t (1 : Fin 2) * 64 + 1 * k.val = k.val; omega

theorem blk1 (c : Dev nD) (t : Fin cfg0.N) (p : Fin 4000) (k : Fin 64) :
    iblk0 V c 1 t (ix2 p k) = V c main_arg0 (ix2 (row t p) k) := by
  obtain ⟨-, -, e0, e1, -⟩ := idx_facts t
  show V c main_arg0 (((cfg0.win 1).blk t).view.emb (ix2 p k)) = V c main_arg0 (ix2 (row t p) k)
  refine congrArg (V c main_arg0) (funext fun a => Fin.ext ?_)
  match a with
  | ⟨0, _⟩ => show win0_1.index t (0 : Fin 2) * 4000 + 1 * p.val = t.val * 4000 + p.val; omega
  | ⟨1, _⟩ => show win0_1.index t (1 : Fin 2) * 64 + 1 * k.val = k.val; omega

theorem blk2 (c : Dev nD) (t : Fin cfg0.N) (p : Fin 4000) :
    iblk0 V c 2 t (ix2 p (0 : Fin 1)) = V c main_v12 (ix2 (row t p) (0 : Fin 1)) := by
  obtain ⟨-, -, -, -, e0, e1, -⟩ := idx_facts t
  show V c main_v12 (((cfg0.win 2).blk t).view.emb (ix2 p (0 : Fin 1))) = V c main_v12 (ix2 (row t p) (0 : Fin 1))
  refine congrArg (V c main_v12) (funext fun a => Fin.ext ?_)
  match a with
  | ⟨0, _⟩ => show win0_2.index t (0 : Fin 2) * 4000 + 1 * p.val = t.val * 4000 + p.val; omega
  | ⟨1, _⟩ => show win0_2.index t (1 : Fin 2) * 1 + 1 * 0 = 0; omega

theorem blk3 (c : Dev nD) (t : Fin cfg0.N) (k j : Fin 64) :
    iblk0 V c 3 t (ix2 k j) = V c main_arg2 (ix2 k j) := by
  obtain ⟨-, -, -, -, -, -, e0, e1, -⟩ := idx_facts t
  show V c main_arg2 (((cfg0.win 3).blk t).view.emb (ix2 k j)) = V c main_arg2 (ix2 k j)
  refine congrArg (V c main_arg2) (funext fun a => Fin.ext ?_)
  match a with
  | ⟨0, _⟩ => show win0_3.index t (0 : Fin 2) * 64 + 1 * k.val = k.val; omega
  | ⟨1, _⟩ => show win0_3.index t (1 : Fin 2) * 64 + 1 * j.val = j.val; omega

theorem blk4 (c : Dev nD) (t : Fin cfg0.N) (k j : Fin 64) :
    iblk0 V c 4 t (ix2 k j) = V c main_arg3 (ix2 k j) := by
  obtain ⟨-, -, -, -, -, -, -, -, e0, e1, -⟩ := idx_facts t
  show V c main_arg3 (((cfg0.win 4).blk t).view.emb (ix2 k j)) = V c main_arg3 (ix2 k j)
  refine congrArg (V c main_arg3) (funext fun a => Fin.ext ?_)
  match a with
  | ⟨0, _⟩ => show win0_4.index t (0 : Fin 2) * 64 + 1 * k.val = k.val; omega
  | ⟨1, _⟩ => show win0_4.index t (1 : Fin 2) * 64 + 1 * j.val = j.val; omega

theorem blk5 (c : Dev nD) (t : Fin cfg0.N) (j : Fin 64) :
    iblk0 V c 5 t (ix1 j) = V c main_arg4 (ix1 j) := by
  obtain ⟨-, -, -, -, -, -, -, -, -, -, e0, -⟩ := idx_facts t
  show V c main_arg4 (((cfg0.win 5).blk t).view.emb (ix1 j)) = V c main_arg4 (ix1 j)
  refine congrArg (V c main_arg4) (funext fun a => Fin.ext ?_)
  match a with
  | ⟨0, _⟩ => show win0_5.index t (0 : Fin 1) * 64 + 1 * j.val = j.val; omega

theorem blk6 (c : Dev nD) (t : Fin cfg0.N) (k : Fin 64) (o : Fin 32) :
    iblk0 V c 6 t (ix2 k o) = V c main_arg5 (ix2 k o) := by
  obtain ⟨-, -, -, -, -, -, -, -, -, -, -, e0, e1, -⟩ := idx_facts t
  show V c main_arg5 (((cfg0.win 6).blk t).view.emb (ix2 k o)) = V c main_arg5 (ix2 k o)
  refine congrArg (V c main_arg5) (funext fun a => Fin.ext ?_)
  match a with
  | ⟨0, _⟩ => show win0_6.index t (0 : Fin 2) * 64 + 1 * k.val = k.val; omega
  | ⟨1, _⟩ => show win0_6.index t (1 : Fin 2) * 32 + 1 * o.val = o.val; omega

/-- A block's hidden features are the array's hidden features at the block's rows, given where the block's entries
    sit in the arrays. -/
theorem hid_blk (c : Dev nD) (t : Fin cfg0.N) (p : Fin 4000) (j : Fin 64)
    (x0 x1 : Vec Ideal S4000x64 .f32) (x2 : Vec Ideal S4000x1 .f32) (x3 x4 : Vec Ideal S64x64 .f32) (x5 : Vec Ideal S64 .f32)
    (h0 : ∀ k : Fin 64, x0 (ix2 p k) = V c main_v22 (ix2 (row t p) k))
    (h1 : ∀ k : Fin 64, x1 (ix2 p k) = V c main_arg0 (ix2 (row t p) k))
    (h2 : x2 (ix2 p (0 : Fin 1)) = V c main_v12 (ix2 (row t p) (0 : Fin 1)))
    (h3 : ∀ k : Fin 64, x3 (ix2 k j) = V c main_arg2 (ix2 k j))
    (h4 : ∀ k : Fin 64, x4 (ix2 k j) = V c main_arg3 (ix2 k j))
    (h5 : x5 (ix1 j) = V c main_arg4 (ix1 j)) :
    relu (fun y => x0 y * x2 (ix2 (y 0) (0 : Fin 1))) x1 x3 x4 x5 (ix2 p j)
      = Gh (V c main_v22) (V c main_arg0) (V c main_v12) (V c main_arg2) (V c main_arg3) (V c main_arg4) (ix2 (row t p) j) := by
  unfold Gh
  exact relu_congr _ _ _ _ _ _ _ _ _ _ (ix2 p j) (ix2 (row t p) j) (fun k => congrArg₂ (· * ·) (h0 k) h2) h1 h3 h4 h5

/-- What point `t` writes back to the hidden array is block `t` of `Gh` of the arrays the region finds. -/
theorem flushed7_eq (c : Dev nD) (t : Fin cfg0.N) :
    (dat0 V c).flushed 7 t = ((cfg0.win 7).blk t).view.read (Elt Ideal)
      (Gh (V c main_v22) (V c main_arg0) (V c main_v12) (V c main_arg2) (V c main_arg3) (V c main_arg4)) := by
  show (cfg0.win 7).cut (grid0.coords t) ((dat0 V c).after 7 t) = _
  rw [after0_7]
  funext y
  obtain ⟨p, j, rfl⟩ : ∃ (p : Fin 4000) (j : Fin 64), y = ix2 p j := ⟨y 0, y 1, eq_ix2 y⟩
  obtain ⟨-, -, -, -, -, -, -, -, -, -, -, -, -, e0, e1, -⟩ := idx_facts t
  have hemb : ((cfg0.win 7).blk t).view.emb (ix2 p j) = ix2 (row t p) j := by
    funext a; apply Fin.ext
    match a with
    | ⟨0, _⟩ => show win0_7.index t (0 : Fin 2) * 4000 + 1 * p.val = t.val * 4000 + p.val; omega
    | ⟨1, _⟩ => show win0_7.index t (1 : Fin 2) * 64 + 1 * j.val = j.val; omega
  show out0_7 (iblk0 V c 0 t) (iblk0 V c 1 t) (iblk0 V c 2 t) (iblk0 V c 3 t) (iblk0 V c 4 t) (iblk0 V c 5 t) (iblk0 V c 6 t) (ix2 p j)
    = Gh (V c main_v22) (V c main_arg0) (V c main_v12) (V c main_arg2) (V c main_arg3) (V c main_arg4) (((cfg0.win 7).blk t).view.emb (ix2 p j))
  rw [hemb, out7_apply]
  exact hid_blk V c t p j _ _ _ _ _ _ (blk0 V c t p) (blk1 V c t p) (blk2 V c t p) (fun k => blk3 V c t k j)
    (fun k => blk4 V c t k j) (blk5 V c t j)

/-- What point `t` writes back to the projected array is block `t` of `Gp` of the arrays the region finds. -/
theorem flushed8_eq (c : Dev nD) (t : Fin cfg0.N) :
    (dat0 V c).flushed 8 t = ((cfg0.win 8).blk t).view.read (Elt Ideal)
      (Gp (V c main_v22) (V c main_arg0) (V c main_v12) (V c main_arg2) (V c main_arg3) (V c main_arg4) (V c main_arg5)) := by
  show (cfg0.win 8).cut (grid0.coords t) ((dat0 V c).after 8 t) = _
  rw [after0_8]
  funext y
  obtain ⟨p, o, rfl⟩ : ∃ (p : Fin 4000) (o : Fin 32), y = ix2 p o := ⟨y 0, y 1, eq_ix2 y⟩
  obtain ⟨-, -, -, -, -, -, -, -, -, -, -, -, -, -, -, e0, e1⟩ := idx_facts t
  have hemb : ((cfg0.win 8).blk t).view.emb (ix2 p o) = ix2 (row t p) o := by
    funext a; apply Fin.ext
    match a with
    | ⟨0, _⟩ => show win0_8.index t (0 : Fin 2) * 4000 + 1 * p.val = t.val * 4000 + p.val; omega
    | ⟨1, _⟩ => show win0_8.index t (1 : Fin 2) * 32 + 1 * o.val = o.val; omega
  show out0_8 (iblk0 V c 0 t) (iblk0 V c 1 t) (iblk0 V c 2 t) (iblk0 V c 3 t) (iblk0 V c 4 t) (iblk0 V c 5 t) (iblk0 V c 6 t) (ix2 p o)
    = Gp (V c main_v22) (V c main_arg0) (V c main_v12) (V c main_arg2) (V c main_arg3) (V c main_arg4) (V c main_arg5) (((cfg0.win 8).blk t).view.emb (ix2 p o))
  rw [hemb, out8_apply]
  unfold Gp prod
  exact Finset.sum_congr rfl fun k _ => congrArg₂ (· * ·)
    (hid_blk V c t p k _ _ _ _ _ _ (blk0 V c t p) (blk1 V c t p) (blk2 V c t p) (fun k' => blk3 V c t k' k)
      (fun k' => blk4 V c t k' k) (blk5 V c t k)) (blk6 V c t k o)

theorem mem_blk7 (t : Fin cfg0.N) (i : S100000x64.Idx) :
    i ∈ ((cfg0.win 7).blk t).view.set ↔ ∀ a : Fin 2, win0_7.index t a * S4000x64.size a ≤ (i a).val
      ∧ (i a).val < win0_7.index t a * S4000x64.size a + S4000x64.size a := by
  show i ∈ ((View.whole main_v23_0).slice (win0_7.rect t)).set ↔ _
  rw [View.set_slice_whole, Rect.mem_set_unit]
  exact Iff.rfl

theorem mem_blk8 (t : Fin cfg0.N) (i : S100000x32.Idx) :
    i ∈ ((cfg0.win 8).blk t).view.set ↔ ∀ a : Fin 2, win0_8.index t a * S4000x32.size a ≤ (i a).val
      ∧ (i a).val < win0_8.index t a * S4000x32.size a + S4000x32.size a := by
  show i ∈ ((View.whole main_v23_1).slice (win0_8.rect t)).set ↔ _
  rw [View.set_slice_whole, Rect.mem_set_unit]
  exact Iff.rfl

/-- The 25 blocks of 4000 rows cover the 100000 rows of the hidden array … -/
theorem cover7 (i : S100000x64.Idx) :
    ∃ t : Fin cfg0.N, (cfg0.win 7).flush t = true ∧ i ∈ ((cfg0.win 7).blk t).view.set := by
  have hi0 : (i 0).val < 100000 := (i 0).isLt
  have hi1 : (i 1).val < 64 := (i 1).isLt
  let t : Fin cfg0.N := ⟨(i 0).val / 4000, by show (i 0).val / 4000 < 25; omega⟩
  obtain ⟨-, -, -, -, -, -, -, -, -, -, -, -, -, e0, e1, -⟩ := idx_facts t
  have ht : t.val = (i 0).val / 4000 := rfl
  refine ⟨t, flush0_7 t, ?_⟩
  rw [mem_blk7]
  intro a
  match a with
  | ⟨0, _⟩ => show win0_7.index t (0 : Fin 2) * 4000 ≤ (i 0).val ∧ (i 0).val < win0_7.index t (0 : Fin 2) * 4000 + 4000; omega
  | ⟨1, _⟩ => show win0_7.index t (1 : Fin 2) * 64 ≤ (i 1).val ∧ (i 1).val < win0_7.index t (1 : Fin 2) * 64 + 64; omega

/-- … and of the projected array. -/
theorem cover8 (i : S100000x32.Idx) :
    ∃ t : Fin cfg0.N, (cfg0.win 8).flush t = true ∧ i ∈ ((cfg0.win 8).blk t).view.set := by
  have hi0 : (i 0).val < 100000 := (i 0).isLt
  have hi1 : (i 1).val < 32 := (i 1).isLt
  let t : Fin cfg0.N := ⟨(i 0).val / 4000, by show (i 0).val / 4000 < 25; omega⟩
  obtain ⟨-, -, -, -, -, -, -, -, -, -, -, -, -, -, -, e0, e1⟩ := idx_facts t
  have ht : t.val = (i 0).val / 4000 := rfl
  refine ⟨t, flush0_8 t, ?_⟩
  rw [mem_blk8]
  intro a
  match a with
  | ⟨0, _⟩ => show win0_8.index t (0 : Fin 2) * 4000 ≤ (i 0).val ∧ (i 0).val < win0_8.index t (0 : Fin 2) * 4000 + 4000; omega
  | ⟨1, _⟩ => show win0_8.index t (1 : Fin 2) * 32 ≤ (i 1).val ∧ (i 1).val < win0_8.index t (1 : Fin 2) * 32 + 32; omega

/-- THE HIDDEN ARRAY after the region. -/
theorem arr7 (c : Dev nD) :
    (dat0 V c).arrAt 7 cfg0.N = Gh (V c main_v22) (V c main_arg0) (V c main_v12) (V c main_arg2) (V c main_arg3) (V c main_arg4) :=
  (dat0 V c).arrAt_eq_of_cover 7 _ (fun t _ => flushed7_eq V c t) cover7

/-- THE PROJECTED ARRAY after the region. -/
theorem arr8 (c : Dev nD) :
    (dat0 V c).arrAt 8 cfg0.N
      = Gp (V c main_v22) (V c main_arg0) (V c main_v12) (V c main_arg2) (V c main_arg3) (V c main_arg4) (V c main_arg5) :=
  (dat0 V c).arrAt_eq_of_cover 8 _ (fun t _ => flushed8_eq V c t) cover8

end

end Cert.KernelIdeal.Reg0

end
-- ==== Proof.Reg1.lean ====
/-
  What the second region leaves in its output array, as one function of the arrays it finds.

  The region walks 25 blocks of 4000 rows. At a block it multiplies each row of the neighbour sum of the projected
  features by that row's scale, adds the bias row, and adds the block of hidden features times the right weights. Row
  `p` of block `t` is row `4000 t + p` of every row-blocked array, the weights and the bias are read whole, and the
  blocks tile the 100000 rows, so the output array ends at
      out (r, o) = (sp (r, o) · scale r + b o) + ∑ k, h (r, k) · wr (k, o).
-/
import proofs.«136544_j72997264162856_2_alg».proof.Proof.Gen.KernelIdeal.Frame
import proofs.«136544_j72997264162856_2_alg».proof.Proof.LibDense
import proofs.«136544_j72997264162856_2_alg».proof.Proof.LibMeanConv
import Idealize.ShloMosaic.Lib.ValueIdx
import Idealize.ShloMosaic.Lib.Pipeline.Value
import Idealize.ShloMosaic.PureOps.Ideal.Laws

set_option maxRecDepth 16384

noncomputable section

namespace Cert.KernelIdeal.Reg1

open Idealize.ShloMosaic Idealize.ShloMosaic.TcCoe Idealize.SL.Sem Idealize.ShloMosaic.ValueIdx
open Idealize.ShloMosaic.Pipeline (Dat)
open Cert.KernelIdeal Cert.KernelIdeal.Gen Cert.LibDense

/-- The second layer's combination of a scaled neighbour sum, a bias and a right projection. -/
def G (sp : S100000x32.Idx → EReal) (h : S100000x64.Idx → EReal) (dinv : S100000x1.Idx → EReal)
    (wr : S64x32.Idx → EReal) (b : S32.Idx → EReal) : S100000x32.Idx → EReal :=
  fun i => (sp i * dinv (ix2 (i 0) (0 : Fin 1)) + b (ix1 (i 1))) + prod h wr i

theorem hz : (![0, 0] : Fin 2 → Nat) = fun _ => 0 := funext fun a => by fin_cases a <;> rfl
theorem hz1 : (![0] : Fin 1 → Nat) = fun _ => 0 := funext fun a => by fin_cases a <;> rfl

/-! ## The body's value at an entry of a block -/

theorem scale_apply (v0 : Vec Ideal S4000x1 .f32) (h1 : S4000x1.ShapeCasts S4000x1) (h2 : S4000x1.Broadcasts S4000x32)
    (p : Fin 4000) (q : Fin 32) :
    broadcastTo S4000x32 (shapeCast S4000x1 v0 h1) h2 (ix2 p q) = v0 (ix2 p (0 : Fin 1)) := by
  rw [shapeCast_self]; exact Cert.MeanConv.broadcast_column v0 h2 p q

theorem proj_apply (d : DotDims S4000x64 S64x32 S4000x32) (hd : d = DotDims.plain 4000 64 32)
    (v6 : Vec Ideal S4000x64 .f32) (v9 : Vec Ideal S64x32 .f32) (h1 : S4000x64.ShapeCasts S4000x64)
    (hb : FTy.bf16.bits < FTy.f32.bits) (p : Fin 4000) (q : Fin 32) :
    matmul d none (truncf .bf16 (shapeCast S4000x64 v6 h1) hb) (truncf .bf16 v9 hb)
        (constant (F := Ideal) S4000x32 .f32 0x00000000#32) (ix2 p q) = prod v6 v9 (ix2 p q) := by
  subst hd
  rw [shapeCast_self]
  exact matmul_plain (M := 4000) (K := 64) (N := 32) _ _ _

theorem pay_apply (v0 : Vec Ideal S4000x1 .f32) (v2 : Vec Ideal S4000x32 .f32) (v6 : Vec Ideal S4000x64 .f32)
    (v9 : Vec Ideal S64x32 .f32) (v11 : Vec Ideal S32 .f32) (p : Fin 4000) (q : Fin 32) :
    k1_pay1 (F := Ideal) v0 v2 v6 v9 v11 (ix2 p q)
      = (v2 (ix2 p q) * v0 (ix2 p (0 : Fin 1)) + v11 (ix1 q)) + prod v6 v9 (ix2 p q) := by
  have e1 : ∀ h : S4000x32.ShapeCasts S4000x32, shapeCast S4000x32 v2 h (ix2 p q) = v2 (ix2 p q) := fun h => by
    rw [shapeCast_self]
  exact congrArg₂ (· + ·) (congrArg₂ (· + ·) (congrArg₂ (· * ·) (e1 _) (scale_apply v0 _ _ p q))
    (bias_row v11 _ _ (ix2 p q))) (proj_apply _ rfl v6 v9 _ _ p q)

theorem out_apply (x0 : Vec Ideal S4000x32 .f32) (x1 : Vec Ideal S4000x64 .f32) (x2 : Vec Ideal S4000x1 .f32)
    (x3 : Vec Ideal S64x32 .f32) (x4 : Vec Ideal S32 .f32) (p : Fin 4000) (q : Fin 32) :
    out1_5 x0 x1 x2 x3 x4 (ix2 p q) = (x0 (ix2 p q) * x2 (ix2 p (0 : Fin 1)) + x4 (ix1 q)) + prod x1 x3 (ix2 p q) := by
  unfold out1_5
  rw [View.canon_unit_zero hz]
  simp only [View.ld_unit_zero (S := S4000x1) hz, View.ld_unit_zero (S := S4000x32) hz, View.ld_unit_zero (S := S4000x64) hz,
    View.ld_unit_zero (S := S64x32) hz, View.ld_unit_zero (S := S32) hz1]
  exact pay_apply x2 x0 x1 x3 x4 p q

/-! ## From blocks to the array -/

section
variable (V : (c : Dev nD) → (b : Ref sig .tc) → Buf (Elt Ideal) ((c : Thread nD τ).loc b))

/-- The printed index maps over the grid: the three row-blocked inputs and the output move one block per point, the
    weights and the bias stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Row `p` of block `t`. -/
def row (t : Fin cfg1.N) (p : Fin 4000) : Fin 100000 :=
  ⟨t.val * 4000 + p.val, by have h1 : t.val < 25 := t.isLt; have h2 := p.isLt; omega⟩

theorem blk0 (c : Dev nD) (t : Fin cfg1.N) (p : Fin 4000) (q : Fin 32) :
    iblk1 V c 0 t (ix2 p q) = V c main_v33 (ix2 (row t p) q) := by
  obtain ⟨e0, e1, -⟩ := idx_facts t
  show V c main_v33 (((cfg1.win 0).blk t).view.emb (ix2 p q)) = V c main_v33 (ix2 (row t p) q)
  refine congrArg (V c main_v33) (funext fun a => Fin.ext ?_)
  match a with
  | ⟨0, _⟩ => show win1_0.index t (0 : Fin 2) * 4000 + 1 * p.val = t.val * 4000 + p.val; omega
  | ⟨1, _⟩ => show win1_0.index t (1 : Fin 2) * 32 + 1 * q.val = q.val; omega

theorem blk1 (c : Dev nD) (t : Fin cfg1.N) (p : Fin 4000) (k : Fin 64) :
    iblk1 V c 1 t (ix2 p k) = V c main_v23_0 (ix2 (row t p) k) := by
  obtain ⟨-, -, e0, e1, -⟩ := idx_facts t
  show V c main_v23_0 (((cfg1.win 1).blk t).view.emb (ix2 p k)) = V c main_v23_0 (ix2 (row t p) k)
  refine congrArg (V c main_v23_0) (funext fun a => Fin.ext ?_)
  match a with
  | ⟨0, _⟩ => show win1_1.index t (0 : Fin 2) * 4000 + 1 * p.val = t.val * 4000 + p.val; omega
  | ⟨1, _⟩ => show win1_1.index t (1 : Fin 2) * 64 + 1 * k.val = k.val; omega

theorem blk2 (c : Dev nD) (t : Fin cfg1.N) (p : Fin 4000) :
    iblk1 V c 2 t (ix2 p (0 : Fin 1)) = V c main_v12 (ix2 (row t p) (0 : Fin 1)) := by
  obtain ⟨-, -, -, -, e0, e1, -⟩ := idx_facts t
  show V c main_v12 (((cfg1.win 2).blk t).view.emb (ix2 p (0 : Fin 1))) = V c main_v12 (ix2 (row t p) (0 : Fin 1))
  refine congrArg (V c main_v12) (funext fun a => Fin.ext ?_)
  match a with
  | ⟨0, _⟩ => show win1_2.index t (0 : Fin 2) * 4000 + 1 * p.val = t.val * 4000 + p.val; omega
  | ⟨1, _⟩ => show win1_2.index t (1 : Fin 2) * 1 + 1 * 0 = 0; omega

theorem blk3 (c : Dev nD) (t : Fin cfg1.N) (k : Fin 64) (q : Fin 32) :
    iblk1 V c 3 t (ix2 k q) = V c main_arg6 (ix2 k q) := by
  obtain ⟨-, -, -, -, -, -, e0, e1, -⟩ := idx_facts t
  show V c main_arg6 (((cfg1.win 3).blk t).view.emb (ix2 k q)) = V c main_arg6 (ix2 k q)
  refine congrArg (V c main_arg6) (funext fun a => Fin.ext ?_)
  match a with
  | ⟨0, _⟩ => show win1_3.index t (0 : Fin 2) * 64 + 1 * k.val = k.val; omega
  | ⟨1, _⟩ => show win1_3.index t (1 : Fin 2) * 32 + 1 * q.val = q.val; omega

theorem blk4 (c : Dev nD) (t : Fin cfg1.N) (q : Fin 32) :
    iblk1 V c 4 t (ix1 q) = V c main_arg7 (ix1 q) := by
  obtain ⟨-, -, -, -, -, -, -, -, e0, -⟩ := idx_facts t
  show V c main_arg7 (((cfg1.win 4).blk t).view.emb (ix1 q)) = V c main_arg7 (ix1 q)
  refine congrArg (V c main_arg7) (funext fun a => Fin.ext ?_)
  match a with
  | ⟨0, _⟩ => show win1_4.index t (0 : Fin 1) * 32 + 1 * q.val = q.val; omega

/-- What point `t` writes back is block `t` of `G` of the arrays the region finds. -/
theorem flushed_eq (c : Dev nD) (t : Fin cfg1.N) :
    (dat1 V c).flushed 5 t = ((cfg1.win 5).blk t).view.read (Elt Ideal)
      (G (V c main_v33) (V c main_v23_0) (V c main_v12) (V c main_arg6) (V c main_arg7)) := by
  show (cfg1.win 5).cut (grid1.coords t) ((dat1 V c).after 5 t) = _
  rw [after1_5]
  funext j
  obtain ⟨p, q, rfl⟩ : ∃ (p : Fin 4000) (q : Fin 32), j = ix2 p q := ⟨j 0, j 1, eq_ix2 j⟩
  obtain ⟨-, -, -, -, -, -, -, -, -, e0, e1⟩ := idx_facts t
  have hemb : ((cfg1.win 5).blk t).view.emb (ix2 p q) = ix2 (row t p) q := by
    funext a; apply Fin.ext
    match a with
    | ⟨0, _⟩ => show win1_5.index t (0 : Fin 2) * 4000 + 1 * p.val = t.val * 4000 + p.val; omega
    | ⟨1, _⟩ => show win1_5.index t (1 : Fin 2) * 32 + 1 * q.val = q.val; omega
  show out1_5 (iblk1 V c 0 t) (iblk1 V c 1 t) (iblk1 V c 2 t) (iblk1 V c 3 t) (iblk1 V c 4 t) (ix2 p q)
    = G (V c main_v33) (V c main_v23_0) (V c main_v12) (V c main_arg6) (V c main_arg7) (((cfg1.win 5).blk t).view.emb (ix2 p q))
  rw [hemb, out_apply]
  unfold G prod
  rw [blk0 V c t p q, blk2 V c t p, blk4 V c t q]
  exact congrArg₂ (· + ·) rfl (Finset.sum_congr rfl fun k _ => congrArg₂ (· * ·) (blk1 V c t p k) (blk3 V c t k q))

/-- An index of the output array is in point `t`'s block iff its coordinates are in the block's ranges. -/
theorem mem_blk (t : Fin cfg1.N) (i : S100000x32.Idx) :
    i ∈ ((cfg1.win 5).blk t).view.set ↔ ∀ a : Fin 2, win1_5.index t a * S4000x32.size a ≤ (i a).val
      ∧ (i a).val < win1_5.index t a * S4000x32.size a + S4000x32.size a := by
  show i ∈ ((View.whole main_v34).slice (win1_5.rect t)).set ↔ _
  rw [View.set_slice_whole, Rect.mem_set_unit]
  exact Iff.rfl

/-- The 25 blocks of 4000 rows cover the 100000 rows. -/
theorem cover (i : S100000x32.Idx) :
    ∃ t : Fin cfg1.N, (cfg1.win 5).flush t = true ∧ i ∈ ((cfg1.win 5).blk t).view.set := by
  have hi0 : (i 0).val < 100000 := (i 0).isLt
  have hi1 : (i 1).val < 32 := (i 1).isLt
  let t : Fin cfg1.N := ⟨(i 0).val / 4000, by show (i 0).val / 4000 < 25; omega⟩
  obtain ⟨-, -, -, -, -, -, -, -, -, e0, e1⟩ := idx_facts t
  have ht : t.val = (i 0).val / 4000 := rfl
  refine ⟨t, flush1_5 t, ?_⟩
  rw [mem_blk]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 32 ≤ (i 1).val ∧ (i 1).val < win1_5.index t (1 : Fin 2) * 32 + 32; omega

/-- THE OUTPUT ARRAY after the region. -/
theorem arr (c : Dev nD) :
    (dat1 V c).arrAt 5 cfg1.N = G (V c main_v33) (V c main_v23_0) (V c main_v12) (V c main_arg6) (V c main_arg7) :=
  (dat1 V c).arrAt_eq_of_cover 5 _ (fun t _ => flushed_eq V c t) cover

end

end Cert.KernelIdeal.Reg1

end
-- ==== Proof.KernelValue.lean ====
/-
  The idealized kernel's result array, as one function of its arguments.

  The second region's output is its combination of the neighbour sum of the projected hidden features, the hidden features,
  the reciprocal column and the second layer's right weights and bias; the hidden features and their projection are the
  first region's two outputs, computed from the neighbour sum of the input features, the features, the reciprocal column
  and the first layer's weights and bias. The reciprocal column holds `1 / max (count, 1)` at every row, so the scaled
  neighbour sums are the network's, and the composition is the network in the arrangement that scales and projects first.
-/
import proofs.«136544_j72997264162856_2_alg».proof.Proof.HostA
import proofs.«136544_j72997264162856_2_alg».proof.Proof.HostB
import proofs.«136544_j72997264162856_2_alg».proof.Proof.Reg0
import proofs.«136544_j72997264162856_2_alg».proof.Proof.Reg1
import proofs.«136544_j72997264162856_2_alg».proof.Proof.Sage

set_option maxRecDepth 16384

noncomputable section

namespace Cert.KernelIdeal.Value

open Idealize.ShloMosaic Idealize.ShloMosaic.TcCoe Idealize.SL.Sem Idealize.ShloMosaic.ValueIdx
open Cert.KernelIdeal Cert.KernelIdeal.Gen Cert.LibDense Cert.Sage

/-- The two regions' functions, composed over the neighbour sums and a column of reciprocals of the divisors, are the
    network that scales each neighbour sum by the reciprocal and takes the second layer's left projection first. -/
theorem net_of_parts (isrc idst : IVec S1200000x1 32) (x : S100000x64.Idx → EReal) (wl1 wr1 : S64x64.Idx → EReal)
    (b1 : S64.Idx → EReal) (wl2 wr2 : S64x32.Idx → EReal) (b2 : S32.Idx → EReal) (dinv : S100000x1.Idx → EReal)
    (hd : ∀ r : Fin 100000, dinv (ix2 r (0 : Fin 1)) = Ideal.div 1 (cnt idst r)) :
    Reg1.G (agg Host.hN isrc idst (Reg0.Gp (agg Host.hN isrc idst x) x dinv wl1 wr1 b1 wl2))
        (Reg0.Gh (agg Host.hN isrc idst x) x dinv wl1 wr1 b1) dinv wr2 b2
      = netScaled Host.hN isrc idst x wl1 wr1 b1 wl2 wr2 b2 := by
  have hs : ∀ {C : ℕ} (X : (⟨2, ![100000, C]⟩ : Shape).Idx → EReal),
      (fun y => agg Host.hN isrc idst X y * dinv (ix2 (y 0) (0 : Fin 1))) = scaled Host.hN isrc idst X := by
    intro C X; funext y; unfold scaled
    exact congrArg (fun s => agg Host.hN isrc idst X y * s) (hd (y 0))
  have hH : Reg0.Gh (agg Host.hN isrc idst x) x dinv wl1 wr1 b1 = hidScaled Host.hN isrc idst x wl1 wr1 b1 := by
    unfold Reg0.Gh hidScaled; rw [hs]
  unfold Reg0.Gp
  rw [hH]
  funext i
  unfold Reg1.G netScaled outScaled
  rw [← congrFun (hs (prod (hidScaled Host.hN isrc idst x wl1 wr1 b1) wl2)) i]

section
variable (m : (ℓ : Loc nD τ sig) → Buf (Elt Ideal) ℓ) (ρ : Dev nD → PrngReg) (c : Dev nD)

/-- THE RESULT ARRAY after the run. -/
theorem out_eq : W4 m ρ c (Proc.devRef .tc main_v34)
    = netScaled (N := 100000) (E := 1200000) Host.hN (Host.srcCol m c) (Host.dstCol m c)
        (m ((c : Thread nD τ).loc main_arg0)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) := by
  refine (W4_arr m ρ c 5).trans ?_
  refine (Reg1.arr (V3 m ρ) c).trans ?_
  have e33 : V3 m ρ c main_v33 = agg Host.hN (Host.srcCol m c) (Host.dstCol m c)
      (Reg0.Gp (V1 m ρ c main_v22) (V1 m ρ c main_arg0) (V1 m ρ c main_v12) (V1 m ρ c main_arg2) (V1 m ρ c main_arg3)
        (V1 m ρ c main_arg4) (V1 m ρ c main_arg5)) :=
    (Host.v33_eq m ρ c).trans (congrArg (agg Host.hN (Host.srcCol m c) (Host.dstCol m c))
      ((W2_arr m ρ c 8).trans (Reg0.arr8 (V1 m ρ) c)))
  have e230 : V3 m ρ c main_v23_0 = Reg0.Gh (V1 m ρ c main_v22) (V1 m ρ c main_arg0) (V1 m ρ c main_v12)
      (V1 m ρ c main_arg2) (V1 m ρ c main_arg3) (V1 m ρ c main_arg4) :=
    (Host.hid_keep m ρ c).trans ((W2_arr m ρ c 7).trans (Reg0.arr7 (V1 m ρ) c))
  have e12 : V3 m ρ c main_v12 = V1 m ρ c main_v12 := Host.recip_keep m ρ c
  have e6 : V3 m ρ c main_arg6 = m ((c : Thread nD τ).loc main_arg6) := Host.arg6_eq m ρ c
  have e7 : V3 m ρ c main_arg7 = m ((c : Thread nD τ).loc main_arg7) := Host.arg7_eq m ρ c
  rw [e33, e230, e12, e6, e7]
  have f22 : V1 m ρ c main_v22 = agg Host.hN (Host.srcCol m c) (Host.dstCol m c) (m ((c : Thread nD τ).loc main_arg0)) :=
    Host.v22_eq m ρ c
  have f0 : V1 m ρ c main_arg0 = m ((c : Thread nD τ).loc main_arg0) := Host.arg0_eq m ρ c
  have f2 : V1 m ρ c main_arg2 = m ((c : Thread nD τ).loc main_arg2) := Host.arg2_eq m ρ c
  have f3 : V1 m ρ c main_arg3 = m ((c : Thread nD τ).loc main_arg3) := Host.arg3_eq m ρ c
  have f4 : V1 m ρ c main_arg4 = m ((c : Thread nD τ).loc main_arg4) := Host.arg4_eq m ρ c
  have f5 : V1 m ρ c main_arg5 = m ((c : Thread nD τ).loc main_arg5) := Host.arg5_eq m ρ c
  rw [f22, f0, f2, f3, f4, f5]
  exact net_of_parts _ _ _ _ _ _ _ _ _ (V1 m ρ c main_v12) (Host.v12_eq m ρ c)

end

end Cert.KernelIdeal.Value

end
-- ==== Proof.RefValue.lean ====
/-
  The reference network, read index by index: the value its last operation writes is the two-layer graph convolution
  with mean aggregation in the arrangement that divides each neighbour sum by the node's divisor and projects afterwards.

  The reference recomputes its two index columns (the edges' source rows, made nonnegative, and their destination rows)
  before every use; the recomputed columns are the same compositions of the same operations. Each neighbour sum is a gather
  of rows at the source column accumulated into a table of zeros at the destination column; each divisor is a column of
  ones accumulated into zeros at the destination column and floored at one. A product with a weight matrix is the
  row-by-column sum, and a bias vector broadcast down the rows reads the bias entry of the column.
-/
import proofs.«136544_j72997264162856_2_alg».proof.Proof.Gen.ReferenceIdeal.Read
import proofs.«136544_j72997264162856_2_alg».proof.Proof.Sage

noncomputable section

namespace Cert.RefValue

open Cert.ReferenceIdeal Cert.ReferenceIdeal.Gen Cert.ReferenceIdeal.Read Idealize.ShloMosaic Idealize.ShloMosaic.ValueIdx
open Cert.LibDense Cert.Lib.Rows

/-! ## The index columns are computed once -/

section Columns
variable (x1 : (⟨S2x1200000, .i32⟩ : BufTy).Contents (Elt Ideal))

/-- The source column of the second layer is the first layer's. -/
theorem src2_eq : val_main_v35 (F := Ideal) x1 = val_main_v9 (F := Ideal) x1 := rfl

/-- The destination column of the first divisor is the first neighbour sum's. -/
theorem dst1c_eq : val_main_v16 (F := Ideal) x1 = val_main_v12 (F := Ideal) x1 := rfl

/-- The destination column of the second neighbour sum is the first's. -/
theorem dst2_eq : val_main_v38 (F := Ideal) x1 = val_main_v12 (F := Ideal) x1 := rfl

/-- The destination column of the second divisor is the first neighbour sum's. -/
theorem dst2c_eq : val_main_v42 (F := Ideal) x1 = val_main_v12 (F := Ideal) x1 := rfl

end Columns

/-! ## Constant tables -/

/-- A table of the zero word is zero everywhere. -/
theorem zeros2_apply (j : S100000x64.Idx) : val_main_v11 (F := Ideal) j = 0 := by
  rw [val_main_v11_apply, val_main_cst_apply, Ideal.ofBits_def, Ideal.ofBits_zero_f32]

theorem zeros2'_apply (j : S100000x64.Idx) : val_main_v37 (F := Ideal) j = 0 := by
  rw [val_main_v37_apply, val_main_cst_6_apply, Ideal.ofBits_def, Ideal.ofBits_zero_f32]

theorem zeros1_apply (j : S100000.Idx) : val_main_v15 (F := Ideal) j = 0 := by
  rw [val_main_v15_apply, val_main_cst_2_apply, Ideal.ofBits_def, Ideal.ofBits_zero_f32]

theorem zeros1'_apply (j : S100000.Idx) : val_main_v41 (F := Ideal) j = 0 := by
  rw [val_main_v41_apply, val_main_cst_8_apply, Ideal.ofBits_def, Ideal.ofBits_zero_f32]

/-- A column of the word of one is one everywhere. -/
theorem ones_apply (j : S1200000.Idx) : val_main_v14 (F := Ideal) j = 1 := by
  rw [val_main_v14_apply, val_main_cst_1_apply, Ideal.ofBits_def, Cert.MeanConv.word_one]

theorem ones'_apply (j : S1200000.Idx) : val_main_v40 (F := Ideal) j = 1 := by
  rw [val_main_v40_apply, val_main_cst_7_apply, Ideal.ofBits_def, Cert.MeanConv.word_one]

theorem floor_apply (j : S100000.Idx) : val_main_v18 (F := Ideal) j = 1 := by
  rw [val_main_v18_apply, val_main_cst_3_apply, Ideal.ofBits_def, Cert.MeanConv.word_one]

theorem floor'_apply (j : S100000.Idx) : val_main_v44 (F := Ideal) j = 1 := by
  rw [val_main_v44_apply, val_main_cst_9_apply, Ideal.ofBits_def, Cert.MeanConv.word_one]

/-! ## The printed dimension records are the row-gather and row-accumulate records -/

theorem rec_scatter : scatter_S100000x64_S1200000x1_S1200000x64_1_0_0_1
    = scatterRowsDims 100000 1200000 64 scatter_S100000x64_S1200000x1_S1200000x64_1_0_0_1_wf := rfl

theorem rec_gather : gather_S100000x64_S1200000x1_S1200000x64_1_0_n_n_0_1_164
    = gatherRowsDims 100000 1200000 64 gather_S100000x64_S1200000x1_S1200000x64_1_0_n_n_0_1_164_wf := rfl

theorem rec_scatter1 : scatter_S100000_S1200000x1_S1200000_n_0_0_1
    = scatterEltsDims 100000 1200000 scatter_S100000_S1200000x1_S1200000_n_0_0_1_wf := rfl

/-! ## Neighbour sums and divisors -/

section Sums
variable (x0 : (⟨S100000x64, .f32⟩ : BufTy).Contents (Elt Ideal)) (x1 : (⟨S2x1200000, .i32⟩ : BufTy).Contents (Elt Ideal))
  (x2 x3 : (⟨S64x64, .f32⟩ : BufTy).Contents (Elt Ideal)) (x4 : (⟨S64, .f32⟩ : BufTy).Contents (Elt Ideal))

/-- The first layer's neighbour sum: the features' rows gathered at the sources, accumulated at the destinations. -/
theorem sum1_eq : val_main_v13 (F := Ideal) x0 x1
    = Cert.Sage.agg (N := 100000) (E := 1200000) (by decide) (val_main_v9 (F := Ideal) x1) (val_main_v12 (F := Ideal) x1) x0 := by
  unfold val_main_v13 val_main_v10
  generalize val_main_v9 (F := Ideal) x1 = isrc
  generalize val_main_v12 (F := Ideal) x1 = idst
  rw [Host.scatterAdd, Ideal.hostScatterAdd_def, rec_scatter, rec_gather]
  exact Cert.Sage.scatter_gather (N := 100000) (E := 1200000) (by decide) isrc idst
    gather_S100000x64_S1200000x1_S1200000x64_1_0_n_n_0_1_164_wf scatter_S100000x64_S1200000x1_S1200000x64_1_0_0_1_wf
    (val_main_v11 (F := Ideal)) zeros2_apply x0

/-- The second layer's neighbour sum, of the hidden layer's rows. -/
theorem sum2_eq : val_main_v39 (F := Ideal) x0 x1 x2 x3 x4
    = Cert.Sage.agg (N := 100000) (E := 1200000) (by decide) (val_main_v9 (F := Ideal) x1) (val_main_v12 (F := Ideal) x1)
        (val_main_v29 (F := Ideal) x0 x1 x2 x3 x4) := by
  unfold val_main_v39 val_main_v36
  rw [src2_eq, dst2_eq]
  generalize val_main_v29 (F := Ideal) x0 x1 x2 x3 x4 = h
  generalize val_main_v9 (F := Ideal) x1 = isrc
  generalize val_main_v12 (F := Ideal) x1 = idst
  rw [Host.scatterAdd, Ideal.hostScatterAdd_def, rec_scatter, rec_gather]
  exact Cert.Sage.scatter_gather (N := 100000) (E := 1200000) (by decide) isrc idst
    gather_S100000x64_S1200000x1_S1200000x64_1_0_n_n_0_1_164_wf scatter_S100000x64_S1200000x1_S1200000x64_1_0_0_1_wf
    (val_main_v37 (F := Ideal)) zeros2'_apply h

/-- The first layer's divisor at a node. -/
theorem cnt1_apply (r : Fin 100000) : val_main_v19 (F := Ideal) x1 (ix1 r)
    = Cert.Sage.cnt (N := 100000) (E := 1200000) (val_main_v12 (F := Ideal) x1) r := by
  rw [val_main_v19_apply, Ideal.maximumf_def, floor_apply]
  unfold val_main_v17
  rw [dst1c_eq]
  generalize val_main_v12 (F := Ideal) x1 = idst
  rw [Host.scatterAdd, Ideal.hostScatterAdd_def, rec_scatter1]
  exact Cert.Sage.scatter_ones (N := 100000) (E := 1200000) idst
    scatter_S100000_S1200000x1_S1200000_n_0_0_1_wf (val_main_v15 (F := Ideal)) zeros1_apply (val_main_v14 (F := Ideal)) ones_apply r

/-- The second layer's divisor at a node. -/
theorem cnt2_apply (r : Fin 100000) : val_main_v45 (F := Ideal) x1 (ix1 r)
    = Cert.Sage.cnt (N := 100000) (E := 1200000) (val_main_v12 (F := Ideal) x1) r := by
  rw [val_main_v45_apply, Ideal.maximumf_def, floor'_apply]
  unfold val_main_v43
  rw [dst2c_eq]
  generalize val_main_v12 (F := Ideal) x1 = idst
  rw [Host.scatterAdd, Ideal.hostScatterAdd_def, rec_scatter1]
  exact Cert.Sage.scatter_ones (N := 100000) (E := 1200000) idst
    scatter_S100000_S1200000x1_S1200000_n_0_0_1_wf (val_main_v41 (F := Ideal)) zeros1'_apply (val_main_v40 (F := Ideal)) ones'_apply r

end Sums

/-! ## Where the printed products, biases and divisor columns read their operands -/

theorem lidx_hid (i : S100000x64.Idx) (k : Fin 64) : lidx_main_v23 i k = ix2 (i 0) k :=
  funext fun a => Fin.ext (by match a with | ⟨0, _⟩ => rfl | ⟨1, _⟩ => rfl)

theorem ridx_hid (i : S100000x64.Idx) (k : Fin 64) : ridx_main_v23 i k = ix2 k (i 1) :=
  funext fun a => Fin.ext (by match a with | ⟨0, _⟩ => rfl | ⟨1, _⟩ => rfl)

theorem lidx_hidself (i : S100000x64.Idx) (k : Fin 64) : lidx_main_v27 i k = ix2 (i 0) k :=
  funext fun a => Fin.ext (by match a with | ⟨0, _⟩ => rfl | ⟨1, _⟩ => rfl)

theorem ridx_hidself (i : S100000x64.Idx) (k : Fin 64) : ridx_main_v27 i k = ix2 k (i 1) :=
  funext fun a => Fin.ext (by match a with | ⟨0, _⟩ => rfl | ⟨1, _⟩ => rfl)

theorem lidx_out (i : S100000x32.Idx) (k : Fin 64) : lidx_main_v49 i k = ix2 (i 0) k :=
  funext fun a => Fin.ext (by match a with | ⟨0, _⟩ => rfl | ⟨1, _⟩ => rfl)

theorem ridx_out (i : S100000x32.Idx) (k : Fin 64) : ridx_main_v49 i k = ix2 k (i 1) :=
  funext fun a => Fin.ext (by match a with | ⟨0, _⟩ => rfl | ⟨1, _⟩ => rfl)

theorem lidx_outself (i : S100000x32.Idx) (k : Fin 64) : lidx_main_v53 i k = ix2 (i 0) k :=
  funext fun a => Fin.ext (by match a with | ⟨0, _⟩ => rfl | ⟨1, _⟩ => rfl)

theorem ridx_outself (i : S100000x32.Idx) (k : Fin 64) : ridx_main_v53 i k = ix2 k (i 1) :=
  funext fun a => Fin.ext (by match a with | ⟨0, _⟩ => rfl | ⟨1, _⟩ => rfl)

theorem idx_cnt1 (r : Fin 100000) (k : Fin 64) : idx_main_v20 (idx_main_v21 (ix2 r k)) = ix1 r :=
  funext fun a => Fin.ext (by match a with | ⟨0, _⟩ => rfl)

theorem idx_cnt2 (r : Fin 100000) (k : Fin 64) : idx_main_v46 (idx_main_v47 (ix2 r k)) = ix1 r :=
  funext fun a => Fin.ext (by match a with | ⟨0, _⟩ => rfl)

theorem idx_bias1 (i : S100000x64.Idx) : idx_main_v24 (idx_main_v25 i) = ix1 (i 1) :=
  funext fun a => Fin.ext (by match a with | ⟨0, _⟩ => rfl)

theorem idx_bias2 (i : S100000x32.Idx) : idx_main_v50 (idx_main_v51 i) = ix1 (i 1) :=
  funext fun a => Fin.ext (by match a with | ⟨0, _⟩ => rfl)

/-! ## The hidden layer -/

section Hidden
variable (x0 : (⟨S100000x64, .f32⟩ : BufTy).Contents (Elt Ideal)) (x1 : (⟨S2x1200000, .i32⟩ : BufTy).Contents (Elt Ideal))
  (x2 x3 : (⟨S64x64, .f32⟩ : BufTy).Contents (Elt Ideal)) (x4 : (⟨S64, .f32⟩ : BufTy).Contents (Elt Ideal))

/-- The first layer's mean rows: the neighbour sum divided, row by row, by the divisor. -/
theorem mean1_eq : val_main_v22 (F := Ideal) x0 x1
    = Cert.Sage.meaned (N := 100000) (E := 1200000) (by decide) (val_main_v9 (F := Ideal) x1) (val_main_v12 (F := Ideal) x1) x0 := by
  funext j
  obtain ⟨r, k, rfl⟩ : ∃ (r : Fin 100000) (k : Fin 64), j = ix2 r k := ⟨j 0, j 1, eq_ix2 j⟩
  rw [val_main_v22_apply, Ideal.hostDivf_def, sum1_eq, val_main_v21_apply, val_main_v20_apply, idx_cnt1, cnt1_apply]
  rfl

/-- The mean rows times the left weights. -/
theorem proj1_eq : val_main_v23 (F := Ideal) x0 x1 x2
    = prod (Cert.Sage.meaned (N := 100000) (E := 1200000) (by decide) (val_main_v9 (F := Ideal) x1) (val_main_v12 (F := Ideal) x1) x0) x2 := by
  funext i
  rw [val_main_v23_apply, mean1_eq]
  unfold prod
  refine Finset.sum_congr rfl fun k _ => ?_
  rw [lidx_hid, ridx_hid]
  rfl

/-- The features times the right weights. -/
theorem self1_eq : val_main_v27 (F := Ideal) x0 x3 = prod x0 x3 := by
  funext i
  rw [val_main_v27_apply]
  unfold prod
  refine Finset.sum_congr rfl fun k _ => ?_
  rw [lidx_hidself, ridx_hidself]
  rfl

/-- The first bias broadcast down the rows. -/
theorem bias1_apply (i : S100000x64.Idx) : val_main_v25 (F := Ideal) x4 i = x4 (ix1 (i 1)) := by
  rw [val_main_v25_apply, val_main_v24_apply, idx_bias1]
  rfl

/-- The hidden layer is the first layer of the network in the dividing arrangement. -/
theorem hidden_eq : val_main_v29 (F := Ideal) x0 x1 x2 x3 x4
    = Cert.Sage.hidMeaned (N := 100000) (E := 1200000) (by decide) (val_main_v9 (F := Ideal) x1) (val_main_v12 (F := Ideal) x1)
        x0 x2 x3 x4 := by
  funext i
  rw [val_main_v29_apply, val_main_v28_apply, val_main_v26_apply, proj1_eq, bias1_apply, self1_eq, val_main_call0_v0_apply,
    val_main_call0_cst_apply]
  simp only [Ideal.maximumf_def, Ideal.addf_def, Ideal.ofBits_def]
  rfl

end Hidden

/-! ## The output layer -/

section Output
variable (x0 : (⟨S100000x64, .f32⟩ : BufTy).Contents (Elt Ideal)) (x1 : (⟨S2x1200000, .i32⟩ : BufTy).Contents (Elt Ideal))
  (x2 x3 : (⟨S64x64, .f32⟩ : BufTy).Contents (Elt Ideal)) (x4 : (⟨S64, .f32⟩ : BufTy).Contents (Elt Ideal))
  (x5 x6 : (⟨S64x32, .f32⟩ : BufTy).Contents (Elt Ideal)) (x7 : (⟨S32, .f32⟩ : BufTy).Contents (Elt Ideal))

/-- The second layer's mean rows, of the hidden layer. -/
theorem mean2_eq : val_main_v48 (F := Ideal) x0 x1 x2 x3 x4
    = Cert.Sage.meaned (N := 100000) (E := 1200000) (by decide) (val_main_v9 (F := Ideal) x1) (val_main_v12 (F := Ideal) x1)
        (val_main_v29 (F := Ideal) x0 x1 x2 x3 x4) := by
  funext j
  obtain ⟨r, k, rfl⟩ : ∃ (r : Fin 100000) (k : Fin 64), j = ix2 r k := ⟨j 0, j 1, eq_ix2 j⟩
  rw [val_main_v48_apply, Ideal.hostDivf_def, sum2_eq, val_main_v47_apply, val_main_v46_apply, idx_cnt2, cnt2_apply]
  rfl

/-- The mean rows of the hidden layer times the left weights. -/
theorem proj2_eq : val_main_v49 (F := Ideal) x0 x1 x2 x3 x4 x5
    = prod (Cert.Sage.meaned (N := 100000) (E := 1200000) (by decide) (val_main_v9 (F := Ideal) x1) (val_main_v12 (F := Ideal) x1)
        (val_main_v29 (F := Ideal) x0 x1 x2 x3 x4)) x5 := by
  funext i
  rw [val_main_v49_apply, mean2_eq]
  unfold prod
  refine Finset.sum_congr rfl fun k _ => ?_
  rw [lidx_out, ridx_out]
  rfl

/-- The hidden layer times the right weights. -/
theorem self2_eq : val_main_v53 (F := Ideal) x0 x1 x2 x3 x4 x6 = prod (val_main_v29 (F := Ideal) x0 x1 x2 x3 x4) x6 := by
  funext i
  rw [val_main_v53_apply]
  unfold prod
  refine Finset.sum_congr rfl fun k _ => ?_
  rw [lidx_outself, ridx_outself]
  rfl

/-- The second bias broadcast down the rows. -/
theorem bias2_apply (i : S100000x32.Idx) : val_main_v51 (F := Ideal) x7 i = x7 (ix1 (i 1)) := by
  rw [val_main_v51_apply, val_main_v50_apply, idx_bias2]
  rfl

/-- The reference's result is the network in the dividing arrangement, over the reference's own two index columns. -/
theorem ref_eq (x0 : (⟨S100000x64, .f32⟩ : BufTy).Contents (Elt Ideal)) (x1 : (⟨S2x1200000, .i32⟩ : BufTy).Contents (Elt Ideal))
    (x2 x3 : (⟨S64x64, .f32⟩ : BufTy).Contents (Elt Ideal)) (x4 : (⟨S64, .f32⟩ : BufTy).Contents (Elt Ideal))
    (x5 x6 : (⟨S64x32, .f32⟩ : BufTy).Contents (Elt Ideal)) (x7 : (⟨S32, .f32⟩ : BufTy).Contents (Elt Ideal)) :
    Cert.ReferenceIdeal.Read.val_main_v54 (F := Ideal) x0 x1 x2 x3 x4 x5 x6 x7
      = Cert.Sage.netMeaned (N := 100000) (E := 1200000) (by decide)
          (Cert.ReferenceIdeal.Read.val_main_v9 (F := Ideal) x1) (Cert.ReferenceIdeal.Read.val_main_v12 (F := Ideal) x1) x0 x2 x3 x4 x5 x6 x7 := by
  funext i
  rw [val_main_v54_apply, val_main_v52_apply, proj2_eq, bias2_apply, self2_eq, hidden_eq]
  simp only [Ideal.addf_def]
  rfl

end Output

end Cert.RefValue

end
-- ==== Proof.Finite.lean ====
/-
  A precondition that every float input is finite, read back: each such input is, entry by entry, a real number.

  The precondition is the conjunction, over the float inputs, of "every entry's absolute value is below +∞". A conjunction
  of one-bit words is 1 exactly when each is; a reduction by "and" over all axes that came out 1 met only 1s; an entry
  compares below +∞ exactly when `max x (-x) < ⊤`, and an extended real with that property is neither `⊤` nor `⊥`, so it is
  the coercion of a real number.
-/
import proofs.«136544_j72997264162856_2_alg».proof.Proof.Gen.Pre_finite_inputs
import proofs.«136544_j72997264162856_2_alg».proof.Proof.LibSageSumLaw
import Idealize.ShloMosaic.Lib.ReduceAll
import Idealize.ShloMosaic.Lib.ValueIdx
import Idealize.ShloMosaic.PureOps.Ideal

noncomputable section

namespace Cert.Finite

open Idealize.ShloMosaic Cert.Pre_finite_inputs Cert.Pre_finite_inputs.Gen
open Cert.LibSageSum (IsReal)

/-- A shape of rank zero has one index. -/
instance : Subsingleton S_.Idx := ⟨fun a b => funext fun d => d.elim0⟩

/-- The single-precision word `0x7F800000` is +∞. -/
theorem word_inf : Ideal.ofBits .f32 0x7F800000#32 = ⊤ := by simp [Ideal.ofBits, Ideal.ieee]

/-- An extended real whose absolute value is below +∞ is a real number. -/
theorem isReal_of_abs_lt_top (x : EReal) (h : max x (-x) < ⊤) : IsReal x := by
  induction x using EReal.rec with
  | bot => simp at h
  | coe r => exact ⟨r, rfl⟩
  | top => simp at h

/-- THE ELEMENT FACT: where the comparison of the absolute value with the +∞ word, broadcast to the array's shape, is 1,
    the entry is a real number. -/
theorem isReal_of_cmp {s : Shape} (hb : S_.BroadcastsInDim s (![] : Fin 0 → Fin s.rank)) (a : FVec Ideal s .f32) (j : s.Idx)
    (h : cmpf .olt (Host.absf a) (broadcastInDim s ![] hb (constant (F := Ideal) S_ .f32 0x7F800000#32)) j = 1#1) :
    IsReal (a j) := by
  apply isReal_of_abs_lt_top
  have h' : Ideal.cmp .olt (max (a j) (-(a j))) (Ideal.ofBits .f32 0x7F800000#32) = 1#1 := h
  rw [word_inf] at h'
  by_contra hn
  simp [Ideal.cmp, hn] at h'

/-- Every entry of each float input the network's comparison needs is a real number. -/
theorem real_of_pre (a0 : FVec Ideal S100000x64 .f32) (a1 : IVec S2x1200000 32) (a2 a3 : FVec Ideal S64x64 .f32) (a4 : FVec Ideal S64 .f32)
    (a5 a6 : FVec Ideal S64x32 .f32) (a7 : FVec Ideal S32 .f32)
    (h : Cert.Pre_finite_inputs.fn (F := Ideal) a0 a1 a2 a3 a4 a5 a6 a7 = fun _ => 1#1) :
    (∀ j, Cert.LibSageSum.IsReal (a0 j)) ∧ (∀ j, Cert.LibSageSum.IsReal (a2 j)) ∧ (∀ j, Cert.LibSageSum.IsReal (a3 j))
      ∧ (∀ j, Cert.LibSageSum.IsReal (a4 j)) ∧ (∀ j, Cert.LibSageSum.IsReal (a5 j)) := by
  have h0 := congrFun h ValueIdx.ix0
  dsimp only [Cert.Pre_finite_inputs.fn, Cert.Pre_finite_inputs.fn_part1, andi] at h0
  simp only [IntOp.andi_eq_one] at h0
  obtain ⟨⟨⟨⟨⟨⟨h3, h7⟩, h12⟩, h17⟩, h22⟩, _⟩, _⟩ := h0
  exact ⟨fun j => isReal_of_cmp _ a0 j (Host.reduce_andi_all _ _ _ _ _ h3 j),
    fun j => isReal_of_cmp _ a2 j (Host.reduce_andi_all _ _ _ _ _ h7 j),
    fun j => isReal_of_cmp _ a3 j (Host.reduce_andi_all _ _ _ _ _ h12 j),
    fun j => isReal_of_cmp _ a4 j (Host.reduce_andi_all _ _ _ _ _ h17 j),
    fun j => isReal_of_cmp _ a5 j (Host.reduce_andi_all _ _ _ _ _ h22 j)⟩

end Cert.Finite

end
-- ==== Proof.lean ====
/-
  A two-layer graph convolution with mean aggregation: a kernel in two regions against its reference, equal on the extended reals.

  The kernel's program sums, for every node, the feature rows of its in-neighbours on the host (a gather at the source
  numbers followed by an accumulation at the destination numbers), and computes once the reciprocal `1 / max (count, 1)` of
  every node's in-degree. Its first region, block by block of 4000 rows, scales the neighbour sums by the reciprocals,
  applies the first layer's two weight matrices and bias, clamps at zero, and also projects the hidden rows by the second
  layer's left weights; the host sums the projected rows over the in-neighbours; the second region scales that sum, adds
  the bias and the hidden rows through the right weights. The reference divides each neighbour sum by `max (count, 1)`,
  adds the bias before the right-weight term, and takes the second layer's left projection after the neighbour sum.

  The run of each program ends with its result at one function of the arguments: the kernel's is read off the contents
  its two regions and the host operations between them leave (25 blocks of 4000 rows tile the 100000 rows; a matrix
  product is the row-by-column sum whatever its tiling; a change of float format is the identity), the reference's off its
  operations one at a time. Dividing by a nonzero number is multiplying by its reciprocal and a sum of three terms may be
  regrouped, on all extended reals; the projection commutes with the neighbour sum because a product distributes over a
  finite sum of REAL numbers, which is where the finiteness of the inputs is used.
-/
import proofs.«136544_j72997264162856_2_alg».proof.Defs
import proofs.«136544_j72997264162856_2_alg».proof.Proof.Gen.Kernel
import proofs.«136544_j72997264162856_2_alg».proof.Proof.Gen.Kernel.Skeleton
import proofs.«136544_j72997264162856_2_alg».proof.Proof.Gen.Kernel.Launch
import proofs.«136544_j72997264162856_2_alg».proof.Proof.Gen.Kernel.Points
import proofs.«136544_j72997264162856_2_alg».proof.Proof.Gen.Kernel.Frame
import proofs.«136544_j72997264162856_2_alg».proof.Proof.Gen.KernelIdeal
import proofs.«136544_j72997264162856_2_alg».proof.Proof.Gen.KernelIdeal.Skeleton
import proofs.«136544_j72997264162856_2_alg».proof.Proof.Gen.KernelIdeal.Launch
import proofs.«136544_j72997264162856_2_alg».proof.Proof.Gen.KernelIdeal.Points
import proofs.«136544_j72997264162856_2_alg».proof.Proof.Gen.KernelIdeal.Frame
import proofs.«136544_j72997264162856_2_alg».proof.Proof.Gen.ReferenceIdeal
import proofs.«136544_j72997264162856_2_alg».proof.Proof.Gen.ReferenceIdeal.Run
import proofs.«136544_j72997264162856_2_alg».proof.Proof.Gen.ReferenceIdeal.Read
import proofs.«136544_j72997264162856_2_alg».proof.Proof.Gen.Pre_finite_inputs
import proofs.«136544_j72997264162856_2_alg».proof.Proof.KernelRun
import proofs.«136544_j72997264162856_2_alg».proof.Proof.KernelValue
import proofs.«136544_j72997264162856_2_alg».proof.Proof.Sage
import proofs.«136544_j72997264162856_2_alg».proof.Proof.RefValue
import proofs.«136544_j72997264162856_2_alg».proof.Proof.Finite
import Idealize.ShloMosaic.Adequacy
import Idealize.ShloMosaic.Init

noncomputable section

namespace Cert.Proof

open Idealize.ShloMosaic Idealize.SL.Sem Idealize.ShloMosaic.StableHlo

/-! ## The claims -/

theorem frame_Kernel : Cert.frame_Kernel := fun m ρ _ => Cert.Kernel.Gen.frame m ρ

theorem frame_KernelIdeal : Cert.frame_KernelIdeal := fun m ρ _ => Cert.KernelIdeal.Gen.frame m ρ

theorem frame_ReferenceIdeal : Cert.frame_ReferenceIdeal := fun m ρ _ =>
  (θ_run Cert.ReferenceIdeal.defs _ _).mono (fun _ h c => (h c).2) (Cert.ReferenceIdeal.Value.run (F := Ideal) m ρ)

/-- On the extended reals the kernel's result is the two-layer network in the arrangement that scales each neighbour sum
    by the reciprocal of the divisor and projects before summing; the reference's is the arrangement that divides and
    projects after. Both are stated over the same two index columns — the edge argument's source numbers, a negative one
    moved up by the row count, and its destination numbers — and the arguments agree. The inputs are finite,
    so the features, the first layer's weights and bias and the second layer's left weights are real numbers, and on real
    numbers the two arrangements are one function: a product distributes over a finite sum of reals. -/
theorem algebraic : Cert.algebraic_KernelIdeal_ReferenceIdeal := by
  intro m ρ m' ρ' hpre hagree
  refine ⟨fun c => Cert.Sage.netScaled (N := 100000) (E := 1200000) (by decide)
      (Cert.ReferenceIdeal.Read.val_main_v9 (F := Ideal)
        (m ((c.tc : Thread Cert.KernelIdeal.nD Cert.KernelIdeal.τ).loc Cert.KernelIdeal.main_arg1)))
      (Cert.ReferenceIdeal.Read.val_main_v12 (F := Ideal)
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · refine (θ_run Cert.KernelIdeal.defs _ _).mono (fun _ h c => ⟨(h c).1.trans ?_, (h c).2⟩)
      (Cert.KernelIdeal.Run.run_out (F := Ideal) m ρ)
    exact Cert.KernelIdeal.Value.out_eq m ρ c
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    obtain ⟨r0, r2, r3, r4, r5⟩ := Cert.Finite.real_of_pre _ _ _ _ _ _ _ _ (hpre c)
    rw [Cert.ReferenceIdeal.Read.val_main_v54_eq, Cert.RefValue.ref_eq, e0, e1, e2, e3, e4, e5, e6, e7]
    exact (Cert.Sage.net_eq (N := 100000) (E := 1200000) (by decide) _ _ _ _ _ _ _ _ _ r0 r2 r3 r4 r5).symm

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, trivial, algebraic⟩

end Cert.Proof

end
